-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S2048x256 : Shape := ⟨2, ![2048, 256]⟩
abbrev S1024x256 : Shape := ⟨2, ![1024, 256]⟩
abbrev S2048x1 : Shape := ⟨2, ![2048, 1]⟩
abbrev S256x1024 : Shape := ⟨2, ![256, 1024]⟩
abbrev S2048x1024 : Shape := ⟨2, ![2048, 1024]⟩
abbrev S2048 : Shape := ⟨1, ![2048]⟩
abbrev S4096x256 : Shape := ⟨2, ![4096, 256]⟩
abbrev S4096 : Shape := ⟨1, ![4096]⟩

abbrev nBuf : Space → Nat
  | .hbm => 36
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S8192x256, .bf16⟩
  | .hbm, ⟨9, _⟩ => ⟨S8192x1, .f32⟩
  | .hbm, ⟨10, _⟩ => ⟨S8192, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_cst_5 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S2048x1024_S2048 : S2048x1024.Reduces [1] S2048
  shapeCasts_S2048_S2048x1 : S2048.ShapeCasts S2048x1
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v6) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S256x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S_, .i1⟩
  | .hbm, ⟨34, _⟩ => ⟨S8192, .i1⟩
  | .hbm, ⟨35, _⟩ => ⟨S8192, .i1⟩
  | .hbm, ⟨36, _⟩ => ⟨S8192, .i1⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S8192x1, .i32⟩
  | .hbm, ⟨55, _⟩ => ⟨S8192x1, .i32⟩
  | .hbm, ⟨56, _⟩ => ⟨S8192x2, .i32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1, .i32⟩
  | .hbm, ⟨74, _⟩ => ⟨S8192x2, .i32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_1 : Ref sig .tc := ⟨.hbm, 26, rfl⟩
abbrev main_call1_v5 : Ref sig .tc := ⟨.hbm, 27, rfl⟩
abbrev main_call1_v6 : Ref sig .tc := ⟨.hbm, 28, rfl⟩
abbrev main_call1_c_2 : Ref sig .tc := ⟨.hbm, 29, rfl⟩
abbrev main_call1_v7 : Ref sig .tc := ⟨.hbm, 30, rfl⟩
abbrev main_call1_v8 : Ref sig .tc := ⟨.hbm, 31, rfl⟩
abbrev main_call1_c_3 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_c_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_cst_11 : Ref sig .tc := ⟨.hbm, 84, rfl⟩
abbrev main_v46 : Ref sig .tc := ⟨.hbm, 85, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.Kb.Cases.lean ====
/-
  The row-sum kernel's grid, case by case.  The grid is 4 row blocks by 8 column blocks, walked row-major: point
  `t` has row block `t / 8` and column block `t % 8`.  The body zeroes its accumulator when the column block is 0,
  adds the block's row sums of `exp (2 · xr · xcᵀ)` at every point, and copies the accumulator to the output block
  when the column block is 7.  So a point is in one of three cases: FIRST (column 0), MIDDLE (columns 1–6), LAST
  (column 7); the output window is idle, and not written back, in the first two.  This module states the two
  branch conditions in closed form, where the windows are idle, the arrays as the region finds them (after the
  host lines that normalise the rows), and each window's block at a point.
-/
import proofs.«135387_j44985487459095_2_alg».proof.Proof.Gen.Kernel.Launch
import proofs.«135387_j44985487459095_2_alg».proof.Proof.Gen.Kernel.Skeleton
import proofs.«135387_j44985487459095_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the host lines before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, in closed form -/

/-- "The column block is 0": the accumulator is zeroed. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "The column block is 7": the accumulator is copied to the output block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Off the last column block the output window is idle, and the pipeline does not write its block back. -/
theorem idle_out : ∀ t : Fin cfg0.N, ¬condLast (grid0.coords t) → cfg0.idle 2 (grid0.coords t) = true := by decide +kernel
theorem noFlush_out : ∀ t : Fin cfg0.N, ¬condLast (grid0.coords t) → (cfg0.win 2).flush t = false := by decide +kernel
/-- At the last column block the output window is live. -/
theorem live_out : ∀ t : Fin cfg0.N, condLast (grid0.coords t) → cfg0.idle 2 (grid0.coords t) = false := by decide +kernel

/-! ## The staging and scratch memrefs -/

/-- One staging buffer of the output window, through which its contents are stated. -/
abbrev VOut : View sig .tc .vmem S2048x1 .f32 := (Memref.whole cc0_stg2_0 : Memref sig .tc .vmem S2048x1 .f32).view
/-- Each window's current staging memref at point `t`, as the pipeline passes it, and its wholeness. -/
abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev accM : Memref sig .tc .vmem S2048x1 .f32 := Memref.whole cc0_scratch0
abbrev VAcc : View sig .tc .vmem S2048x1 .f32 := accM.view

/-- The class invariant (the scoped rest and the generator register) with the accumulator as a memref owned at some
    contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.Kb.RunFirst.lean ====
/-
  The body at a point of the FIRST case (column block 0): the accumulator is overwritten with zeros, then with
  zeros plus this block's row sums; the output staging buffer is not touched.  The run finds the pieces the
  accumulator ends with.
-/
import proofs.«135387_j44985487459095_2_alg».proof.Proof.Kb.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the two inputs' at their blocks, the output's at contents handed back untouched, the accumulator's
    at anything — the body runs to the continuation with the inputs and the output as they were and the accumulator with
    its pieces `LS` written. -/
noncomputable def runFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i)
    (x0 : Vec F S2048x256 .bf16) (x1 : Vec F S1024x256 .bf16) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Kb.RunMid.lean ====
/-
  The body at a point of the MIDDLE case (column blocks 1 to 6): the accumulator, found at what the point before
  left, is overwritten with itself plus this block's row sums; the output staging buffer is not touched.
-/
import proofs.«135387_j44985487459095_2_alg».proof.Proof.Kb.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the inputs' at their blocks, the output's at contents handed back untouched, the accumulator's at
    `xs` — the body runs to the continuation with the inputs and the output as they were and the accumulator with its
    pieces `LS` written. -/
noncomputable def runMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i)
    (x0 : Vec F S2048x256 .bf16) (x1 : Vec F S1024x256 .bf16) (xs : Vec F S2048x1 .f32) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Kb.RunLast.lean ====
/-
  The body at a point of the LAST case (column block 7): the accumulator, found at what the point before left, is
  overwritten with itself plus this block's row sums, and that total is stored whole into the output staging buffer.
-/
import proofs.«135387_j44985487459095_2_alg».proof.Proof.Kb.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the inputs' at their blocks, the output's at anything, the accumulator's at `xs` — the body runs to
    the continuation with the inputs as they were, the output with its pieces `L2` written and the accumulator with its
    pieces `LS` written. -/
noncomputable def runLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i)
    (x0 : Vec F S2048x256 .bf16) (x1 : Vec F S1024x256 .bf16) (xs : Vec F S2048x1 .f32) :
    Σ' (L2 : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kb.Data.lean ====
/-
  What the accumulator and the output staging buffer hold after each point, the pipeline's proof data, and the body
  obligation.  After point `t` the accumulator holds the sum of the row sums of the column blocks `0 … t % 8` of row
  block `t / 8` (by recursion on the point: zero plus the first block's at a FIRST point, what the point before left
  plus this block's otherwise); the output staging buffer holds that total at a LAST point and is idle elsewhere.
  The two input windows read ONE array (the normalised rows), each through half of its share.
-/
import proofs.«135387_j44985487459095_2_alg».proof.Proof.Kb.RunFirst
import proofs.«135387_j44985487459095_2_alg».proof.Proof.Kb.RunMid
import proofs.«135387_j44985487459095_2_alg».proof.Proof.Kb.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The output staging buffer's placeholder contents at a point where the window is idle (never consulted). -/
def idleOut : Vec F S2048x1 .f32 := VOut.read (Elt F) (VOut.writes (Elt F) VOut.junk [])

theorem coverFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i) (x0 : Vec F S2048x256 .bf16) (x1 : Vec F S1024x256 .bf16) (y : S2048x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x1.size (by sl_kernel_rfl) y
/-- What a FIRST point leaves in the accumulator. -/
def accFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i) (x0 : Vec F S2048x256 .bf16) (x1 : Vec F S1024x256 .bf16) : Vec F S2048x1 .f32 :=
  VAcc.read (Elt F) (VAcc.writes (Elt F) VAcc.junk (runFirst c i arg2 harg2 arg3 harg3 arg4 harg4 arg5 harg5 hc0 hc1 x0 x1).1)

theorem coverMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i) (x0 : Vec F S2048x256 .bf16) (x1 : Vec F S1024x256 .bf16) (xs : Vec F S2048x1 .f32) (y : S2048x1.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S2048x1.size (by sl_kernel_rfl) y
/-- What a MIDDLE point leaves in the accumulator. -/
def accMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i) (x0 : Vec F S2048x256 .bf16) (x1 : Vec F S1024x256 .bf16) (xs : Vec F S2048x1 .f32) : Vec F S2048x1 .f32 :=
  VAcc.read (Elt F) (VAcc.writes (Elt F) VAcc.junk (runMid c i arg2 harg2 arg3 harg3 arg4 harg4 arg5 harg5 hc0 hc1 x0 x1 xs).1)

theorem coverLastAcc (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) (y : S2048x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x1.size (by sl_kernel_rfl) y
/-- What a LAST point leaves in the accumulator. -/
def accLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) : Vec F S2048x1 .f32 :=
  VAcc.read (Elt F) (VAcc.writes (Elt F) VAcc.junk (runLast c i arg2 harg2 arg3 harg3 arg4 harg4 arg5 harg5 hc0 hc1 x0 x1 xs).2.1)
theorem coverLastOut (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) (y : S2048x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x1.size (by sl_kernel_rfl) y
/-- What a LAST point leaves in the output staging buffer. -/
def outLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) : Vec F S2048x1 .f32 :=
  VOut.read (Elt F) (VOut.writes (Elt F) VOut.junk (runLast c i arg2 harg2 arg3 harg3 arg4 harg4 arg5 harg5 hc0 hc1 x0 x1 xs).1)

/-! ## Point by point -/

/-- After the body at position `n`: the output staging buffer's contents and the accumulator's. -/
def outsAt (c : Dev nD) : (n : ℕ) → n < cfg0.N → Vec F S2048x1 .f32 × Vec F S2048x1 .f32
  | 0, hn => (idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (idleOut, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (idleOut, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (idleOut, accFirst c (grid0.coords t) (ms0 t) (hs0 t) (ms1 t) (hs1 t) (ms2 t) (hs2 t) accM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (idleOut, accMid c (grid0.coords t) (ms0 t) (hs0 t) (ms1 t) (hs1 t) (ms2 t) (hs2 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2, accLast c (grid0.coords t) (ms0 t) (hs0 t) (ms1 t) (hs1 t) (ms2 t) (hs2 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The share each input window holds of the one array both read. -/
def halfL : PosShare TreeShare := fullShare.left
def halfR : PosShare TreeShare := fullShare.right

/-- The proof data on core `c`: the arrays as the region finds them; after the body each input's buffer at its block and
    the output's at `outsAt`; the invariant `PhiS`; the two input windows on halves of their array's share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => halfL
    | ⟨1, _⟩ => halfR
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.Kernel.Hand

end
-- ==== Proof.Kb.Body.lean ====
/-
  The body obligation: at every grid point the body, called on the windows' current staging buffers and the
  accumulator, turns what the proof data says it finds into what the proof data says it leaves.  By cases on the
  point (FIRST, MIDDLE, LAST), each closed by that case's run of the body.
-/
import proofs.«135387_j44985487459095_2_alg».proof.Proof.Kb.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dats m 0 c).leavesExact 0 t = owns (c : Thread nD τ) (ms0 t) fullShare ((dats m 0 c).after 0 t) from by
          unfold Dat.leavesExact; rw [live_in0 t], after_0]
      rw [show (dats m 0 c).leavesExact 1 t = owns (c : Thread nD τ) (ms1 t) fullShare ((dats m 0 c).after 1 t) from by
          unfold Dat.leavesExact; rw [live_in1 t], after_1]
      rw [Dat.leavesExact_idle (dats m 0 c) 2 t (idle_out t (fun h => h1 ((hcondLast t).mp h))) (noFlush_out t (fun h => h1 ((hcondLast t).mp h)))]
      rw [outsAt_first m c t h0 h1]
      unfold accFirst; (try dsimp only)
      by_cases hz : t.val = 0
      · rw [PhiS_castSucc m c t, PhiS_zero m c _ _ hz, PhiA_eq]
        iintro ⟨⟨HS0, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0 t) fullShare ((dats m 0 c).after 0 t) from by
          unfold Dat.leavesExact; rw [live_in0 t], after_0]
      rw [show (dats m 0 c).leavesExact 1 t = owns (c : Thread nD τ) (ms1 t) fullShare ((dats m 0 c).after 1 t) from by
          unfold Dat.leavesExact; rw [live_in1 t], after_1]
      rw [show (dats m 0 c).leavesExact 2 t = owns (c : Thread nD τ) (ms2 t) fullShare ((dats m 0 c).after 2 t) from by
          unfold Dat.leavesExact; rw [live_out t ((hcondLast t).mpr h1)], after_2]
      rw [outsAt_last m c t h0 h1]
      unfold outLast accLast; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [show (dats m 0 c).leavesExact 0 t = owns (c : Thread nD τ) (ms0 t) fullShare ((dats m 0 c).after 0 t) from by
          unfold Dat.leavesExact; rw [live_in0 t], after_0]
      rw [show (dats m 0 c).leavesExact 1 t = owns (c : Thread nD τ) (ms1 t) fullShare ((dats m 0 c).after 1 t) from by
          unfold Dat.leavesExact; rw [live_in1 t], after_1]
      rw [Dat.leavesExact_idle (dats m 0 c) 2 t (idle_out t (fun h => h1 ((hcondLast t).mp h))) (noFlush_out t (fun h => h1 ((hcondLast t).mp h)))]
      rw [outsAt_mid m c t h0 h1]
      unfold accMid; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS0, Hg⟩
  isplitl [HS0]
  · iexists _; iexact HS0
  iexact Hg

end Cert.Kernel.Hand

end
-- ==== Proof.Kb.Launch.lean ====
/-
  The whole run of @main: the host lines that normalise the rows, the row-sum region, the host lines that finish the
  loss.  Between two of these the core holds every unscoped buffer whole at a named valuation.  At the region's
  entry the array of normalised rows — read by BOTH input windows — is dealt to them in two halves of its share, and
  the two halves are joined again at the exit (an input window never writes, so both still hold the entry contents);
  the output array comes back at what the pipeline's write-backs left in it.
-/
import proofs.«135387_j44985487459095_2_alg».proof.Proof.Kb.Body
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Seg HostSeg RegionSeg)

/-! ## The buffers' contents at each boundary -/

/-- Core `c`'s buffers at launch. -/
abbrev W0 : Dev nD → Valuation τ sig (Elt F) := fun c b => m (c, b)
/-- After the host lines before the region (the region's entry): `V0`. -/
abbrev W1 : Dev nD → Valuation τ sig (Elt F) := fun c => V0 m c
/-- At the region's exit: the output array at what the write-backs left, every other buffer as entered. -/
def W2 (c : Dev nD) : Valuation τ sig (Elt F) :=
  Function.update (W1 m c) (Proc.devRef .tc main_v7) ((dats m 0 c).arrAt 2 cfg0.N)
/-- After the host lines that follow the region. -/
abbrev W3 : Dev nD → Valuation τ sig (Elt F) := fun c => StableHlo.after hostOps1 (W2 m c)

theorem W2_out (c : Dev nD) : W2 m c (Proc.devRef .tc main_v7) = (dats m 0 c).arrAt 2 cfg0.N := by
  unfold W2; exact Function.update_self ..
theorem W2_of_ne (c : Dev nD) (b : Ref sig .tc) (hb : b ≠ main_v7) : W2 m c (Proc.devRef .tc b) = W1 m c (Proc.devRef .tc b) := by
  unfold W2; exact Function.update_of_ne (StableHlo.devRef_ne_of_ne hb) ..

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W3 m c) ∗ ∃ r, prngReg c r)

/-! ## The one array of both input windows: dealt in halves, joined again -/

/-- The buffers behind the windows' arrays are two: the normalised rows and the output. -/
theorem arrImage : Finset.univ.image (Pipeline.arrRef spec0) = ([main_v6, main_v7] : List (Ref sig .tc)).toFinset := by decide

/-- The input windows keep the entry contents to the end. -/
theorem arrAt_in0 (c : Dev nD) (n : ℕ) : (dats m 0 c).arrAt 0 n = V m c main_v6 :=
  ((dats m 0 c).arrAt_in 0 rfl n).trans (A_eq m c 0)
theorem arrAt_in1 (c : Dev nD) (n : ℕ) : (dats m 0 c).arrAt 1 n = V m c main_v6 :=
  ((dats m 0 c).arrAt_in 1 rfl n).trans (A_eq m c 1)

/-- The share an input window holds of the array: half. -/
theorem share0 (c : Dev nD) : (dats m 0 c).share 0 = halfL := rfl
theorem share1 (c : Dev nD) : (dats m 0 c).share 1 = halfR := rfl
theorem share2 (c : Dev nD) : (dats m 0 c).share 2 = fullShare := rfl

/-- Each window's array held at its share, spelt at the buffer behind it. -/
theorem arr0_eq (c : Dev nD) (G : Buf (Elt F) ((cfg0.win 0).arr.view.loc (c : Thread nD τ))) :
    (((cfg0.win 0).arr.view.loc (c : Thread nD τ) ↦[(cfg0.win 0).arr.view.set]{(dats m 0 c).share 0} G) : sProp 𝕄)
      = (((c : Thread nD τ).loc main_v6) ↦{halfL} G) := by
  rw [(arr_whole0 0).set_eq_univ, share0]
theorem arr1_eq (c : Dev nD) (G : Buf (Elt F) ((cfg0.win 1).arr.view.loc (c : Thread nD τ))) :
    (((cfg0.win 1).arr.view.loc (c : Thread nD τ) ↦[(cfg0.win 1).arr.view.set]{(dats m 0 c).share 1} G) : sProp 𝕄)
      = (((c : Thread nD τ).loc main_v6) ↦{halfR} G) := by
  rw [(arr_whole0 1).set_eq_univ, share1]
theorem arr2_eq (c : Dev nD) (G : Buf (Elt F) ((cfg0.win 2).arr.view.loc (c : Thread nD τ))) :
    (((cfg0.win 2).arr.view.loc (c : Thread nD τ) ↦[(cfg0.win 2).arr.view.set]{(dats m 0 c).share 2} G) : sProp 𝕄)
      = (((c : Thread nD τ).loc main_v7) ↦{fullShare} G) := by
  rw [(arr_whole0 2).set_eq_univ, share2]

/-- The pipeline's arrays at contents `G`, window by window at the buffers behind them. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v6) ↦{halfL} G 0) ∗ (((c : Thread nD τ).loc main_v6) ↦{halfR} G 1) ∗ (((c : Thread nD τ).loc main_v7) ↦{fullShare} G 2)) := by
  unfold Dat.arrays
  rw [bigSep_W0, arr0_eq, arr1_eq, arr2_eq]

/-- The two buffers behind the arrays, at a valuation. -/
theorem arrBufs_eq2 (c : Dev nD) (Vv : (b : Ref sig .tc) → Buf (Elt F) ((c : Thread nD τ).loc b)) :
    (Pipeline.arrBufs spec0 c Vv : sProp 𝕄)
      = iprop((((c : Thread nD τ).loc main_v6) ↦{fullShare} Vv main_v6) ∗ (((c : Thread nD τ).loc main_v7) ↦{fullShare} Vv main_v7)) := by
  unfold Pipeline.arrBufs
  rw [bigSep_eq_bigSepL_of_eq [main_v6, main_v7] arrImage (by decide)]
  rfl

/-- ENTRY: the buffers behind the arrays make the pipeline's arrays at their entry contents, the array of normalised
    rows dealt in two halves. -/
theorem deal (c : Dev nD) :
    (Pipeline.arrBufs spec0 c (V m c) : sProp 𝕄) ⊢ (dats m 0 c).arrays ((dats m 0 c).arrAt · 0) := by
  rw [arrBufs_eq2, arrays_eq3]
  rw [show (dats m 0 c).arrAt 0 0 = V m c main_v6 from arrAt_in0 m c 0, show (dats m 0 c).arrAt 1 0 = V m c main_v6 from arrAt_in1 m c 0,
    show (dats m 0 c).arrAt 2 0 = V m c main_v7 from A_eq m c 2]
  iintro ⟨H6, H7⟩
  ihave Hs := (pointsTo_share (PosShare.mem_left_op_right fullShare)).1 $$ H6
  icases Hs with ⟨Ha, Hb⟩
  isplitl [Ha]; · iexact Ha
  isplitl [Hb]; · iexact Hb
  iexact H7

/-- EXIT: the pipeline's arrays at their final contents are the two buffers at the exit valuation, the halves joined. -/
theorem join (c : Dev nD) :
    ((dats m 0 c).arrays ((dats m 0 c).arrAt · cfg0.N) : sProp 𝕄) ⊢ Pipeline.arrBufs spec0 c (fun b => W2 m c (Proc.devRef .tc b)) := by
  rw [arrBufs_eq2, arrays_eq3]
  rw [show (dats m 0 c).arrAt 0 cfg0.N = V m c main_v6 from arrAt_in0 m c _, show (dats m 0 c).arrAt 1 cfg0.N = V m c main_v6 from arrAt_in1 m c _,
    W2_out, W2_of_ne m c main_v6 (by decide)]
  iintro ⟨Ha, Hb, H7⟩
  isplitl [Ha Hb]
  · iapply (pointsTo_share (PosShare.mem_left_op_right fullShare)).2
    isplitl [Ha]; · iexact Ha
    iexact Hb
  iexact H7

/-- Off the two arrays the exit valuation is the entry one. -/
theorem rest_eq (c : Dev nD) :
    (Pipeline.unscopedRest spec0 c (fun b => W2 m c (Proc.devRef .tc b)) : sProp 𝕄) = Pipeline.unscopedRest spec0 c (V m c) := by
  unfold Pipeline.unscopedRest
  exact bigSep_congr fun b hb => by
    show ((c : Thread nD τ).loc b ↦{fullShare} W2 m c (Proc.devRef .tc b) : sProp 𝕄) = _
    rw [W2_of_ne m c b fun e => (Finset.mem_sdiff.mp hb).2 (by rw [arrImage, e]; decide)]

/-! ## The region as a segment -/

set_option backward.isDefEq.respectTransparency.types false in
/-- The region over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := Pipeline.unscopedBufs_split₀ (Ix := Unit) (Name := ℕ) (U := UR sig nD τ) (Lvl := ℕ) (Val := Elt F) cfgs (0 : Fin 1) winFacts₀0.arr_unscoped c (V m c)
    rw [Pipeline.unscopedBufs_held] at hsplit
    iintro ⟨⟨Hub, Hp, HO⟩, -, -⟩
    ihave H := (Entails.of_eq hsplit) $$ Hub
    icases H with ⟨Ha, Hrest⟩
    ihave Ha := (deal m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout m c).trans ?_
    unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs (0 : Fin 1) winFacts₀0.arr_unscoped c (fun b => W2 m c (Proc.devRef .tc b))
    rw [Pipeline.unscopedBufs_held, rest_eq] at hsplit
    have hj : ((pdats m 0 c).arrays (fun x => (pdats m 0 c).arrAt x (Pipeline.pin (pcfgs (F := F)) adm 0).N) : sProp 𝕄) ⊢ Pipeline.arrBufs spec0 c (fun b => W2 m c (Proc.devRef .tc b)) := join m c
    iintro ⟨Ha, HO, HY, Hrest⟩
    ihave Ha := hj $$ Ha
    imodintro
    isplitl [Ha Hrest]
    · iapply (Entails.of_eq hsplit.symm); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has each unscoped buffer at the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.Kb.Frame.lean ====
/-
  The frame: the program runs to the end, nothing faults, and its argument array ends as launched — no host line
  writes it, and the region reads it through no window (it only reads the normalised copy).
-/
import proofs.«135387_j44985487459095_2_alg».proof.Proof.Kb.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_keeps_arg0 (Wv : Valuation τ sig (Elt F)) :
    StableHlo.after (hostOps0 (F := F)) Wv (Proc.devRef .tc main_arg0) = Wv (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps1_keeps_arg0 (Wv : Valuation τ sig (Elt F)) :
    StableHlo.after (hostOps1 (F := F)) Wv (Proc.devRef .tc main_arg0) = Wv (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument reaches the end as launched. -/
theorem W3_main_arg0 (c : Dev nD) : W3 m c (Proc.devRef .tc main_arg0) = m ((c : Thread nD τ).loc main_arg0) :=
  (hostOps1_keeps_arg0 _).trans ((W2_of_ne m c main_arg0 (by decide)).trans (hostOps0_keeps_arg0 _))

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_main m ρ)

end Cert.Kernel.Hand

end
-- ==== Proof.Ki.Cases.lean ====
/-
  The row-sum kernel's grid, case by case.  The grid is 4 row blocks by 8 column blocks, walked row-major: point
  `t` has row block `t / 8` and column block `t % 8`.  The body zeroes its accumulator when the column block is 0,
  adds the block's row sums of `exp (2 · xr · xcᵀ)` at every point, and copies the accumulator to the output block
  when the column block is 7.  So a point is in one of three cases: FIRST (column 0), MIDDLE (columns 1–6), LAST
  (column 7); the output window is idle, and not written back, in the first two.  This module states the two
  branch conditions in closed form, where the windows are idle, the arrays as the region finds them (after the
  host lines that normalise the rows), and each window's block at a point.
-/
import proofs.«135387_j44985487459095_2_alg».proof.Proof.Gen.KernelIdeal.Launch
import proofs.«135387_j44985487459095_2_alg».proof.Proof.Gen.KernelIdeal.Skeleton
import proofs.«135387_j44985487459095_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the host lines before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions, in closed form -/

/-- "The column block is 0": the accumulator is zeroed. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "The column block is 7": the accumulator is copied to the output block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Off the last column block the output window is idle, and the pipeline does not write its block back. -/
theorem idle_out : ∀ t : Fin cfg0.N, ¬condLast (grid0.coords t) → cfg0.idle 2 (grid0.coords t) = true := by decide +kernel
theorem noFlush_out : ∀ t : Fin cfg0.N, ¬condLast (grid0.coords t) → (cfg0.win 2).flush t = false := by decide +kernel
/-- At the last column block the output window is live. -/
theorem live_out : ∀ t : Fin cfg0.N, condLast (grid0.coords t) → cfg0.idle 2 (grid0.coords t) = false := by decide +kernel

/-! ## The staging and scratch memrefs -/

/-- One staging buffer of the output window, through which its contents are stated. -/
abbrev VOut : View sig .tc .vmem S2048x1 .f32 := (Memref.whole cc0_stg2_0 : Memref sig .tc .vmem S2048x1 .f32).view
/-- Each window's current staging memref at point `t`, as the pipeline passes it, and its wholeness. -/
abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev accM : Memref sig .tc .vmem S2048x1 .f32 := Memref.whole cc0_scratch0
abbrev VAcc : View sig .tc .vmem S2048x1 .f32 := accM.view

/-- The class invariant (the scoped rest and the generator register) with the accumulator as a memref owned at some
    contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.Ki.RunFirst.lean ====
/-
  The body at a point of the FIRST case (column block 0): the accumulator is overwritten with zeros, then with
  zeros plus this block's row sums; the output staging buffer is not touched.  The run finds the pieces the
  accumulator ends with.
-/
import proofs.«135387_j44985487459095_2_alg».proof.Proof.Ki.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the two inputs' at their blocks, the output's at contents handed back untouched, the accumulator's
    at anything — the body runs to the continuation with the inputs and the output as they were and the accumulator with
    its pieces `LS` written. -/
noncomputable def runFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i)
    (x0 : Vec F S2048x256 .bf16) (x1 : Vec F S1024x256 .bf16) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Ki.RunMid.lean ====
/-
  The body at a point of the MIDDLE case (column blocks 1 to 6): the accumulator, found at what the point before
  left, is overwritten with itself plus this block's row sums; the output staging buffer is not touched.
-/
import proofs.«135387_j44985487459095_2_alg».proof.Proof.Ki.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the inputs' at their blocks, the output's at contents handed back untouched, the accumulator's at
    `xs` — the body runs to the continuation with the inputs and the output as they were and the accumulator with its
    pieces `LS` written. -/
noncomputable def runMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i)
    (x0 : Vec F S2048x256 .bf16) (x1 : Vec F S1024x256 .bf16) (xs : Vec F S2048x1 .f32) :
    { LS : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Ki.RunLast.lean ====
/-
  The body at a point of the LAST case (column block 7): the accumulator, found at what the point before left, is
  overwritten with itself plus this block's row sums, and that total is stored whole into the output staging buffer.
-/
import proofs.«135387_j44985487459095_2_alg».proof.Proof.Ki.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- On whole memrefs — the inputs' at their blocks, the output's at anything, the accumulator's at `xs` — the body runs to
    the continuation with the inputs as they were, the output with its pieces `L2` written and the accumulator with its
    pieces `LS` written. -/
noncomputable def runLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i)
    (x0 : Vec F S2048x256 .bf16) (x1 : Vec F S1024x256 .bf16) (xs : Vec F S2048x1 .f32) :
    Σ' (L2 : List (View.Piece (Elt F) S2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Ki.Data.lean ====
/-
  What the accumulator and the output staging buffer hold after each point, the pipeline's proof data, and the body
  obligation.  After point `t` the accumulator holds the sum of the row sums of the column blocks `0 … t % 8` of row
  block `t / 8` (by recursion on the point: zero plus the first block's at a FIRST point, what the point before left
  plus this block's otherwise); the output staging buffer holds that total at a LAST point and is idle elsewhere.
  The two input windows read ONE array (the normalised rows), each through half of its share.
-/
import proofs.«135387_j44985487459095_2_alg».proof.Proof.Ki.RunFirst
import proofs.«135387_j44985487459095_2_alg».proof.Proof.Ki.RunMid
import proofs.«135387_j44985487459095_2_alg».proof.Proof.Ki.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The output staging buffer's placeholder contents at a point where the window is idle (never consulted). -/
def idleOut : Vec F S2048x1 .f32 := VOut.read (Elt F) (VOut.writes (Elt F) VOut.junk [])

theorem coverFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i) (x0 : Vec F S2048x256 .bf16) (x1 : Vec F S1024x256 .bf16) (y : S2048x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S2048x1.size (by sl_kernel_rfl) y
/-- What a FIRST point leaves in the accumulator. -/
def accFirst (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i) (x0 : Vec F S2048x256 .bf16) (x1 : Vec F S1024x256 .bf16) : Vec F S2048x1 .f32 :=
  VAcc.read (Elt F) (VAcc.writes (Elt F) VAcc.junk (runFirst c i arg2 harg2 arg3 harg3 arg4 harg4 arg5 harg5 hc0 hc1 x0 x1).1)

theorem coverMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i) (x0 : Vec F S2048x256 .bf16) (x1 : Vec F S1024x256 .bf16) (xs : Vec F S2048x1 .f32) (y : S2048x1.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S2048x1.size (by sl_kernel_rfl) y
/-- What a MIDDLE point leaves in the accumulator. -/
def accMid (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i) (x0 : Vec F S2048x256 .bf16) (x1 : Vec F S1024x256 .bf16) (xs : Vec F S2048x1 .f32) : Vec F S2048x1 .f32 :=
  VAcc.read (Elt F) (VAcc.writes (Elt F) VAcc.junk (runMid c i arg2 harg2 arg3 harg3 arg4 harg4 arg5 harg5 hc0 hc1 x0 x1 xs).1)

theorem coverLastAcc (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) (y : S2048x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2048x1.size (by sl_kernel_rfl) y
/-- What a LAST point leaves in the accumulator. -/
def accLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) : Vec F S2048x1 .f32 :=
  VAcc.read (Elt F) (VAcc.writes (Elt F) VAcc.junk (runLast c i arg2 harg2 arg3 harg3 arg4 harg4 arg5 harg5 hc0 hc1 x0 x1 xs).2.1)
theorem coverLastOut (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) (y : S2048x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2048x1.size (by sl_kernel_rfl) y
/-- What a LAST point leaves in the output staging buffer. -/
def outLast (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) : Vec F S2048x1 .f32 :=
  VOut.read (Elt F) (VOut.writes (Elt F) VOut.junk (runLast c i arg2 harg2 arg3 harg3 arg4 harg4 arg5 harg5 hc0 hc1 x0 x1 xs).1)

/-! ## Point by point -/

/-- After the body at position `n`: the output staging buffer's contents and the accumulator's. -/
def outsAt (c : Dev nD) : (n : ℕ) → n < cfg0.N → Vec F S2048x1 .f32 × Vec F S2048x1 .f32
  | 0, hn => (idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (idleOut, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2, accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (idleOut, accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (idleOut, accFirst c (grid0.coords t) (ms0 t) (hs0 t) (ms1 t) (hs1 t) (ms2 t) (hs2 t) accM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (idleOut, accMid c (grid0.coords t) (ms0 t) (hs0 t) (ms1 t) (hs1 t) (ms2 t) (hs2 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2, accLast c (grid0.coords t) (ms0 t) (hs0 t) (ms1 t) (hs1 t) (ms2 t) (hs2 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The share each input window holds of the one array both read. -/
def halfL : PosShare TreeShare := fullShare.left
def halfR : PosShare TreeShare := fullShare.right

/-- The proof data on core `c`: the arrays as the region finds them; after the body each input's buffer at its block and
    the output's at `outsAt`; the invariant `PhiS`; the two input windows on halves of their array's share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => halfL
    | ⟨1, _⟩ => halfR
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.KernelIdeal.Hand

end
-- ==== Proof.Ki.Body.lean ====
/-
  The body obligation: at every grid point the body, called on the windows' current staging buffers and the
  accumulator, turns what the proof data says it finds into what the proof data says it leaves.  By cases on the
  point (FIRST, MIDDLE, LAST), each closed by that case's run of the body.
-/
import proofs.«135387_j44985487459095_2_alg».proof.Proof.Ki.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dats m 0 c).leavesExact 0 t = owns (c : Thread nD τ) (ms0 t) fullShare ((dats m 0 c).after 0 t) from by
          unfold Dat.leavesExact; rw [live_in0 t], after_0]
      rw [show (dats m 0 c).leavesExact 1 t = owns (c : Thread nD τ) (ms1 t) fullShare ((dats m 0 c).after 1 t) from by
          unfold Dat.leavesExact; rw [live_in1 t], after_1]
      rw [Dat.leavesExact_idle (dats m 0 c) 2 t (idle_out t (fun h => h1 ((hcondLast t).mp h))) (noFlush_out t (fun h => h1 ((hcondLast t).mp h)))]
      rw [outsAt_first m c t h0 h1]
      unfold accFirst; (try dsimp only)
      by_cases hz : t.val = 0
      · rw [PhiS_castSucc m c t, PhiS_zero m c _ _ hz, PhiA_eq]
        iintro ⟨⟨HS0, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverFirst c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0 t) fullShare ((dats m 0 c).after 0 t) from by
          unfold Dat.leavesExact; rw [live_in0 t], after_0]
      rw [show (dats m 0 c).leavesExact 1 t = owns (c : Thread nD τ) (ms1 t) fullShare ((dats m 0 c).after 1 t) from by
          unfold Dat.leavesExact; rw [live_in1 t], after_1]
      rw [show (dats m 0 c).leavesExact 2 t = owns (c : Thread nD τ) (ms2 t) fullShare ((dats m 0 c).after 2 t) from by
          unfold Dat.leavesExact; rw [live_out t ((hcondLast t).mpr h1)], after_2]
      rw [outsAt_last m c t h0 h1]
      unfold outLast accLast; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (coverLastAcc c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · rw [show (dats m 0 c).leavesExact 0 t = owns (c : Thread nD τ) (ms0 t) fullShare ((dats m 0 c).after 0 t) from by
          unfold Dat.leavesExact; rw [live_in0 t], after_0]
      rw [show (dats m 0 c).leavesExact 1 t = owns (c : Thread nD τ) (ms1 t) fullShare ((dats m 0 c).after 1 t) from by
          unfold Dat.leavesExact; rw [live_in1 t], after_1]
      rw [Dat.leavesExact_idle (dats m 0 c) 2 t (idle_out t (fun h => h1 ((hcondLast t).mp h))) (noFlush_out t (fun h => h1 ((hcondLast t).mp h)))]
      rw [outsAt_mid m c t h0 h1]
      unfold accMid; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverMid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS0, Hg⟩
  isplitl [HS0]
  · iexists _; iexact HS0
  iexact Hg

end Cert.KernelIdeal.Hand

end
-- ==== Proof.Ki.Launch.lean ====
/-
  The whole run of @main: the host lines that normalise the rows, the row-sum region, the host lines that finish the
  loss.  Between two of these the core holds every unscoped buffer whole at a named valuation.  At the region's
  entry the array of normalised rows — read by BOTH input windows — is dealt to them in two halves of its share, and
  the two halves are joined again at the exit (an input window never writes, so both still hold the entry contents);
  the output array comes back at what the pipeline's write-backs left in it.
-/
import proofs.«135387_j44985487459095_2_alg».proof.Proof.Ki.Body
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Seg HostSeg RegionSeg)

/-! ## The buffers' contents at each boundary -/

/-- Core `c`'s buffers at launch. -/
abbrev W0 : Dev nD → Valuation τ sig (Elt F) := fun c b => m (c, b)
/-- After the host lines before the region (the region's entry): `V0`. -/
abbrev W1 : Dev nD → Valuation τ sig (Elt F) := fun c => V0 m c
/-- At the region's exit: the output array at what the write-backs left, every other buffer as entered. -/
def W2 (c : Dev nD) : Valuation τ sig (Elt F) :=
  Function.update (W1 m c) (Proc.devRef .tc main_v7) ((dats m 0 c).arrAt 2 cfg0.N)
/-- After the host lines that follow the region. -/
abbrev W3 : Dev nD → Valuation τ sig (Elt F) := fun c => StableHlo.after hostOps1 (W2 m c)

theorem W2_out (c : Dev nD) : W2 m c (Proc.devRef .tc main_v7) = (dats m 0 c).arrAt 2 cfg0.N := by
  unfold W2; exact Function.update_self ..
theorem W2_of_ne (c : Dev nD) (b : Ref sig .tc) (hb : b ≠ main_v7) : W2 m c (Proc.devRef .tc b) = W1 m c (Proc.devRef .tc b) := by
  unfold W2; exact Function.update_of_ne (StableHlo.devRef_ne_of_ne hb) ..

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W3 m c) ∗ ∃ r, prngReg c r)

/-! ## The one array of both input windows: dealt in halves, joined again -/

/-- The buffers behind the windows' arrays are two: the normalised rows and the output. -/
theorem arrImage : Finset.univ.image (Pipeline.arrRef spec0) = ([main_v6, main_v7] : List (Ref sig .tc)).toFinset := by decide

/-- The input windows keep the entry contents to the end. -/
theorem arrAt_in0 (c : Dev nD) (n : ℕ) : (dats m 0 c).arrAt 0 n = V m c main_v6 :=
  ((dats m 0 c).arrAt_in 0 rfl n).trans (A_eq m c 0)
theorem arrAt_in1 (c : Dev nD) (n : ℕ) : (dats m 0 c).arrAt 1 n = V m c main_v6 :=
  ((dats m 0 c).arrAt_in 1 rfl n).trans (A_eq m c 1)

/-- The share an input window holds of the array: half. -/
theorem share0 (c : Dev nD) : (dats m 0 c).share 0 = halfL := rfl
theorem share1 (c : Dev nD) : (dats m 0 c).share 1 = halfR := rfl
theorem share2 (c : Dev nD) : (dats m 0 c).share 2 = fullShare := rfl

/-- Each window's array held at its share, spelt at the buffer behind it. -/
theorem arr0_eq (c : Dev nD) (G : Buf (Elt F) ((cfg0.win 0).arr.view.loc (c : Thread nD τ))) :
    (((cfg0.win 0).arr.view.loc (c : Thread nD τ) ↦[(cfg0.win 0).arr.view.set]{(dats m 0 c).share 0} G) : sProp 𝕄)
      = (((c : Thread nD τ).loc main_v6) ↦{halfL} G) := by
  rw [(arr_whole0 0).set_eq_univ, share0]
theorem arr1_eq (c : Dev nD) (G : Buf (Elt F) ((cfg0.win 1).arr.view.loc (c : Thread nD τ))) :
    (((cfg0.win 1).arr.view.loc (c : Thread nD τ) ↦[(cfg0.win 1).arr.view.set]{(dats m 0 c).share 1} G) : sProp 𝕄)
      = (((c : Thread nD τ).loc main_v6) ↦{halfR} G) := by
  rw [(arr_whole0 1).set_eq_univ, share1]
theorem arr2_eq (c : Dev nD) (G : Buf (Elt F) ((cfg0.win 2).arr.view.loc (c : Thread nD τ))) :
    (((cfg0.win 2).arr.view.loc (c : Thread nD τ) ↦[(cfg0.win 2).arr.view.set]{(dats m 0 c).share 2} G) : sProp 𝕄)
      = (((c : Thread nD τ).loc main_v7) ↦{fullShare} G) := by
  rw [(arr_whole0 2).set_eq_univ, share2]

/-- The pipeline's arrays at contents `G`, window by window at the buffers behind them. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v6) ↦{halfL} G 0) ∗ (((c : Thread nD τ).loc main_v6) ↦{halfR} G 1) ∗ (((c : Thread nD τ).loc main_v7) ↦{fullShare} G 2)) := by
  unfold Dat.arrays
  rw [bigSep_W0, arr0_eq, arr1_eq, arr2_eq]

/-- The two buffers behind the arrays, at a valuation. -/
theorem arrBufs_eq2 (c : Dev nD) (Vv : (b : Ref sig .tc) → Buf (Elt F) ((c : Thread nD τ).loc b)) :
    (Pipeline.arrBufs spec0 c Vv : sProp 𝕄)
      = iprop((((c : Thread nD τ).loc main_v6) ↦{fullShare} Vv main_v6) ∗ (((c : Thread nD τ).loc main_v7) ↦{fullShare} Vv main_v7)) := by
  unfold Pipeline.arrBufs
  rw [bigSep_eq_bigSepL_of_eq [main_v6, main_v7] arrImage (by decide)]
  rfl

/-- ENTRY: the buffers behind the arrays make the pipeline's arrays at their entry contents, the array of normalised
    rows dealt in two halves. -/
theorem deal (c : Dev nD) :
    (Pipeline.arrBufs spec0 c (V m c) : sProp 𝕄) ⊢ (dats m 0 c).arrays ((dats m 0 c).arrAt · 0) := by
  rw [arrBufs_eq2, arrays_eq3]
  rw [show (dats m 0 c).arrAt 0 0 = V m c main_v6 from arrAt_in0 m c 0, show (dats m 0 c).arrAt 1 0 = V m c main_v6 from arrAt_in1 m c 0,
    show (dats m 0 c).arrAt 2 0 = V m c main_v7 from A_eq m c 2]
  iintro ⟨H6, H7⟩
  ihave Hs := (pointsTo_share (PosShare.mem_left_op_right fullShare)).1 $$ H6
  icases Hs with ⟨Ha, Hb⟩
  isplitl [Ha]; · iexact Ha
  isplitl [Hb]; · iexact Hb
  iexact H7

/-- EXIT: the pipeline's arrays at their final contents are the two buffers at the exit valuation, the halves joined. -/
theorem join (c : Dev nD) :
    ((dats m 0 c).arrays ((dats m 0 c).arrAt · cfg0.N) : sProp 𝕄) ⊢ Pipeline.arrBufs spec0 c (fun b => W2 m c (Proc.devRef .tc b)) := by
  rw [arrBufs_eq2, arrays_eq3]
  rw [show (dats m 0 c).arrAt 0 cfg0.N = V m c main_v6 from arrAt_in0 m c _, show (dats m 0 c).arrAt 1 cfg0.N = V m c main_v6 from arrAt_in1 m c _,
    W2_out, W2_of_ne m c main_v6 (by decide)]
  iintro ⟨Ha, Hb, H7⟩
  isplitl [Ha Hb]
  · iapply (pointsTo_share (PosShare.mem_left_op_right fullShare)).2
    isplitl [Ha]; · iexact Ha
    iexact Hb
  iexact H7

/-- Off the two arrays the exit valuation is the entry one. -/
theorem rest_eq (c : Dev nD) :
    (Pipeline.unscopedRest spec0 c (fun b => W2 m c (Proc.devRef .tc b)) : sProp 𝕄) = Pipeline.unscopedRest spec0 c (V m c) := by
  unfold Pipeline.unscopedRest
  exact bigSep_congr fun b hb => by
    show ((c : Thread nD τ).loc b ↦{fullShare} W2 m c (Proc.devRef .tc b) : sProp 𝕄) = _
    rw [W2_of_ne m c b fun e => (Finset.mem_sdiff.mp hb).2 (by rw [arrImage, e]; decide)]

/-! ## The region as a segment -/

set_option backward.isDefEq.respectTransparency.types false in
/-- The region over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := Pipeline.unscopedBufs_split₀ (Ix := Unit) (Name := ℕ) (U := UR sig nD τ) (Lvl := ℕ) (Val := Elt F) cfgs (0 : Fin 1) winFacts₀0.arr_unscoped c (V m c)
    rw [Pipeline.unscopedBufs_held] at hsplit
    iintro ⟨⟨Hub, Hp, HO⟩, -, -⟩
    ihave H := (Entails.of_eq hsplit) $$ Hub
    icases H with ⟨Ha, Hrest⟩
    ihave Ha := (deal m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout m c).trans ?_
    unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs (0 : Fin 1) winFacts₀0.arr_unscoped c (fun b => W2 m c (Proc.devRef .tc b))
    rw [Pipeline.unscopedBufs_held, rest_eq] at hsplit
    have hj : ((pdats m 0 c).arrays (fun x => (pdats m 0 c).arrAt x (Pipeline.pin (pcfgs (F := F)) adm 0).N) : sProp 𝕄) ⊢ Pipeline.arrBufs spec0 c (fun b => W2 m c (Proc.devRef .tc b)) := join m c
    iintro ⟨Ha, HO, HY, Hrest⟩
    ihave Ha := hj $$ Ha
    imodintro
    isplitl [Ha Hrest]
    · iapply (Entails.of_eq hsplit.symm); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has each unscoped buffer at the last valuation `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Ki.Frame.lean ====
/-
  The frame: the program runs to the end, nothing faults, and its argument array ends as launched — no host line
  writes it, and the region reads it through no window (it only reads the normalised copy).
-/
import proofs.«135387_j44985487459095_2_alg».proof.Proof.Ki.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_keeps_arg0 (Wv : Valuation τ sig (Elt F)) :
    StableHlo.after (hostOps0 (F := F)) Wv (Proc.devRef .tc main_arg0) = Wv (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps1_keeps_arg0 (Wv : Valuation τ sig (Elt F)) :
    StableHlo.after (hostOps1 (F := F)) Wv (Proc.devRef .tc main_arg0) = Wv (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument reaches the end as launched. -/
theorem W3_main_arg0 (c : Dev nD) : W3 m c (Proc.devRef .tc main_arg0) = m ((c : Thread nD τ).loc main_arg0) :=
  (hostOps1_keeps_arg0 _).trans ((W2_of_ne m c main_arg0 (by decide)).trans (hostOps0_keeps_arg0 _))

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_main m ρ)

end Cert.KernelIdeal.Hand

end
-- ==== Proof.Ki.Term.lean ====
/-
  The kernel program's result as ONE pure function of its argument array, spelt with the program's own operations.
  `xnArr x` is the array of rows divided by their norms (the host lines before the region); `rowBlk` / `colBlk` are
  the blocks the two input windows read of its bf16 copy (2048 rows at row block `i`, 1024 rows at column block
  `j`); `accAt X i j` is the accumulator after column block `j` of row block `i` — zero plus the first block's
  row sums, then each later block's added —; `rowsums X` is the output array, row block `i` holding `accAt X i 7`;
  `tail` is the host lines after the region (the two exact terms, the log-ratio, the mean).
-/
import proofs.«135387_j44985487459095_2_alg».proof.Proof.Gen.KernelIdeal.Skeleton
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

/-- Rows 2048·i … 2048·i + 2047 of a 8192 × 256 array. -/
def rowBlk {α : Type} (X : S8192x256.Idx → α) (i : Fin 4) : S2048x256.Idx → α :=
  fun y => X (ix2 (⟨2048 * i.val + (y 0).val, by have := idx2_lt0 y; have := i.isLt; omega⟩ : Fin 8192) (⟨(y 1).val, idx2_lt1 y⟩ : Fin 256))
/-- Rows 1024·j … 1024·j + 1023 of a 8192 × 256 array. -/
def colBlk {α : Type} (X : S8192x256.Idx → α) (j : Fin 8) : S1024x256.Idx → α :=
  fun y => X (ix2 (⟨1024 * j.val + (y 0).val, by have := idx2_lt0 y; have := j.isLt; omega⟩ : Fin 8192) (⟨(y 1).val, idx2_lt1 y⟩ : Fin 256))

/-- The accumulator after column block `j` of row block `i`. -/
def accAt (X : Vec F S8192x256 .bf16) (i : Fin 4) : ℕ → FVec F S2048x1 .f32
  | 0 => k0_pay2 (rowBlk X i) (colBlk X 0) (k0_pay1 (F := F))
  | j + 1 => k0_pay2 (rowBlk X i) (colBlk X ⟨(j + 1) % 8, Nat.mod_lt _ (by decide)⟩) (accAt X i j)

/-- The region's output array: row block `i` holds the accumulator after its last column block. -/
def rowsums (X : Vec F S8192x256 .bf16) : FVec F S8192x1 .f32 :=
  fun y => accAt X (⟨(y 0).val / 2048, by have := idx2_lt0 y; omega⟩ : Fin 4) 7
    (ix2 (⟨(y 0).val % 2048, Nat.mod_lt _ (by decide)⟩ : Fin 2048) (⟨0, by decide⟩ : Fin 1))

/-- The rows divided by their norms: the host lines before the region, up to the f32 array. -/
def xnArr (x : FVec F S8192x256 .f32) : FVec F S8192x256 .f32 :=
  Host.divf x
    (broadcastInDim S8192x256 ![0, 1] bcast_S8192x1_S8192x256_0_1
      (Host.sqrt
        (broadcastInDim S8192x1 ![0] bcast_S8192_S8192x1_0
          (Host.reduceAdd (mulf x x) (constant S_ .f32 0x00000000#32) reducesTo_S8192x256_S8192_d1 h_S_))))

/-- The host lines after the region, of the region's output `rs` and the normalised rows `v5`. -/
def tail (rs : FVec F S8192x1 .f32) (v5 : FVec F S8192x256 .f32) : FVec F S_ .f32 :=
  Host.divf
    (Host.reduceAdd
      (Host.negf
        (Host.log
          (Host.divf
            (Host.exp
              (Host.divf
                (concatenate S8192 0
                  [⟨S4096,
                      Host.reduceAdd
                        (mulf (extractStridedSlice S4096x256 ![0, 0] v5 slices_S8192x256_S4096x256_0_0)
                          (extractStridedSlice S4096x256 ![4096, 0] v5 slices_S8192x256_S4096x256_4096_0))
                        (constant S_ .f32 0x00000000#32) reducesTo_S4096x256_S4096_d1 h_S_⟩,
                    ⟨S4096,
                      Host.reduceAdd
                        (mulf (extractStridedSlice S4096x256 ![0, 0] v5 slices_S8192x256_S4096x256_0_0)
                          (extractStridedSlice S4096x256 ![4096, 0] v5 slices_S8192x256_S4096x256_4096_0))
                        (constant S_ .f32 0x00000000#32) reducesTo_S4096x256_S4096_d1 h_S_⟩]
                  concatenates_S4096_S4096_S8192_d0)
                (broadcastInDim S8192 ![] bcast_S_S8192 (constant S_ .f32 0x3F000000#32))))
            (subf
              (shapeCast S8192 rs shapeCasts_S8192x1_S8192)
              (Host.exp
                (Host.divf
                  (Host.reduceAdd (mulf v5 v5) (constant S_ .f32 0x00000000#32) reducesTo_S8192x256_S8192_d1 h_S_)
                  (broadcastInDim S8192 ![] bcast_S_S8192 (constant S_ .f32 0x3F000000#32))))))))
      (constant S_ .f32 0x00000000#32) reducesTo_S8192_S_d0 h_S_)
    (constant S_ .f32 0x46000000#32)

/-- The program's result as a function of its argument array. -/
def kernelTerm (x : FVec F S8192x256 .f32) : FVec F S_ .f32 :=
  tail (rowsums (truncf .bf16 (xnArr x) bitsLt_bf16_f32)) (xnArr x)

end Cert.KernelIdeal.Hand

end
-- ==== Proof.Ki.Value.lean ====
/-
  What the region leaves in its output array, as a value.  Each case of the body leaves in the accumulator the
  payload of its last store: zeros plus the block's row sums (FIRST), what it found plus the block's row sums
  (MIDDLE, LAST); a LAST point also stores that total into the output staging buffer.  By induction on the point the
  accumulator after point `t` is `accAt X (t / 8) (t % 8)` of the array `X` of normalised rows, a window's block at
  point `t` being rows `2048 (t / 8) …` resp. `1024 (t % 8) …` of `X`; the points `8 i + 7` write row block `i` of the
  output back, and these four blocks cover it: the output array ends at `rowsums X`.
-/
import proofs.«135387_j44985487459095_2_alg».proof.Proof.Ki.Launch
import proofs.«135387_j44985487459095_2_alg».proof.Proof.Ki.Term
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0] : Fin 2 → Nat) = fun _ => 0 := funext fun a => by fin_cases a <;> rfl

/-! ## The cases' values -/

/-- A MIDDLE point leaves, in the accumulator found at `xs`, `xs` plus the block's row sums. -/
theorem accMid_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : ¬condLast i) (x0 : Vec F S2048x256 .bf16) (x1 : Vec F S1024x256 .bf16) (xs : Vec F S2048x1 .f32) :
    accMid c i arg2 harg2 arg3 harg3 arg4 harg4 arg5 harg5 hc0 hc1 x0 x1 xs = k0_pay2 x0 x1 xs := by
  unfold accMid
  rw [View.read_writes_eq_canon _ _ _ (coverMid c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S2048x256) hz, View.ld_unit_zero (S := S1024x256) hz, View.ld_unit_zero (S := S2048x1) hz]

/-- A LAST point leaves the same in the accumulator, -/
theorem accLast_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) :
    accLast c i arg2 harg2 arg3 harg3 arg4 harg4 arg5 harg5 hc0 hc1 x0 x1 xs = k0_pay2 x0 x1 xs := by
  unfold accLast
  rw [View.read_writes_eq_canon _ _ _ (coverLastAcc c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2048x256) hz, View.ld_unit_zero (S := S1024x256) hz, View.ld_unit_zero (S := S2048x1) hz]

/-- and stores that total into the output staging buffer. -/
theorem outLast_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : ¬condFirst i) (hc1 : condLast i) (x0 : Vec F S2048x256 .bf16) (x1 : Vec F S1024x256 .bf16) (xs : Vec F S2048x1 .f32) :
    outLast c i arg2 harg2 arg3 harg3 arg4 harg4 arg5 harg5 hc0 hc1 x0 x1 xs = k0_pay2 x0 x1 xs := by
  unfold outLast
  rw [View.read_writes_eq_canon _ _ _ (coverLastOut c i arg2 harg2 arg3 harg3 arg4 harg4 arg5 harg5 hc0 hc1 x0 x1 xs)]
  unfold runLast
  dsimp only
  sl_unfold_words
  rw [View.canon_unit_zero hz, View.readCov_unit_zero (S := S2048x1) _ hz]
  simp only [View.readAt_eq_ld, harg2.read_unread, harg3.read_unread, harg5.read_unread, View.ld_unit_zero (S := S2048x256) hz, View.ld_unit_zero (S := S1024x256) hz, View.ld_unit_zero (S := S2048x1) hz]

/-- A FIRST point leaves zeros plus the block's row sums. -/
theorem accFirst_eq (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S2048x1 .f32) (harg5 : arg5.IsWhole) (hc0 : condFirst i) (hc1 : ¬condLast i) (x0 : Vec F S2048x256 .bf16) (x1 : Vec F S1024x256 .bf16) :
    accFirst c i arg2 harg2 arg3 harg3 arg4 harg4 arg5 harg5 hc0 hc1 x0 x1 = k0_pay2 x0 x1 (k0_pay1 (F := F)) := by
  unfold accFirst
  rw [View.read_writes_eq_canon _ _ _ (coverFirst c i arg2 harg2 arg3 harg3 arg4 harg4 arg5 harg5 hc0 hc1 x0 x1)]
  unfold runFirst
  dsimp only
  sl_unfold_words
  rw [View.canon_cons_unit_zero (S := S2048x1) hz, View.readCov_unit_zero (S := S2048x1) _ hz]
  simp only [View.readAt_eq_ld, harg2.read_unread, harg3.read_unread, harg5.read_unread, View.ld_unit_zero (S := S2048x256) hz, View.ld_unit_zero (S := S1024x256) hz, View.ld_unit_zero (S := S2048x1) hz]

/-! ## The windows' blocks -/

theorem hN : cfg0.N = 32 := N_0

/-- The windows' index maps at point `t`: row block `t / 8`, column block `t % 8`. -/
theorem idx_facts : ∀ t : Fin cfg0.N, win0_0.index t 0 = t.val / 8 ∧ win0_0.index t 1 = 0 ∧ win0_1.index t 0 = t.val % 8 ∧ win0_1.index t 1 = 0
    ∧ win0_2.index t 0 = t.val / 8 ∧ win0_2.index t 1 = 0 :=
  (by decide +kernel : ∀ t : Fin grid0.N, win0_0.index t 0 = t.val / 8 ∧ win0_0.index t 1 = 0 ∧ win0_1.index t 0 = t.val % 8 ∧ win0_1.index t 1 = 0
    ∧ win0_2.index t 0 = t.val / 8 ∧ win0_2.index t 1 = 0)

/-- The row window's block at point `t` is rows `2048 (t / 8) …` of the normalised array. -/
theorem iblk0_eq (c : Dev nD) (t : Fin cfg0.N) (i : Fin 4) (hi : t.val / 8 = i.val) :
    (iblk m c 0 t : Vec F S2048x256 .bf16) = rowBlk (V m c main_v6) i := by
  funext j
  unfold iblk rowBlk
  rw [View.read_apply]
  show V m c main_v6 _ = V m c main_v6 _
  refine congrArg (V m c main_v6) ?_
  funext a
  apply Fin.ext
  match a with
  | ⟨0, _⟩ => show win0_0.index t 0 * 2048 + 1 * (j 0).val = 2048 * i.val + (j 0).val; rw [(idx_facts t).1, hi]; omega
  | ⟨1, _⟩ => show win0_0.index t 1 * 256 + 1 * (j 1).val = (j 1).val; rw [(idx_facts t).2.1]; omega

/-- The column window's block at point `t` is rows `1024 (t % 8) …` of the normalised array. -/
theorem iblk1_eq (c : Dev nD) (t : Fin cfg0.N) (k : Fin 8) (hk : t.val % 8 = k.val) :
    (iblk m c 1 t : Vec F S1024x256 .bf16) = colBlk (V m c main_v6) k := by
  funext j
  unfold iblk colBlk
  rw [View.read_apply]
  show V m c main_v6 _ = V m c main_v6 _
  refine congrArg (V m c main_v6) ?_
  funext a
  apply Fin.ext
  match a with
  | ⟨0, _⟩ => show win0_1.index t 0 * 1024 + 1 * (j 0).val = 1024 * k.val + (j 0).val; rw [(idx_facts t).2.2.1, hk]; omega
  | ⟨1, _⟩ => show win0_1.index t 1 * 256 + 1 * (j 1).val = (j 1).val; rw [(idx_facts t).2.2.2.1]; omega

/-! ## The accumulator, point by point -/

theorem pay2_congr {a a' : Vec F S2048x256 .bf16} {b b' : Vec F S1024x256 .bf16} {s s' : Vec F S2048x1 .f32}
    (ha : a = a') (hb : b = b') (hs : s = s') : k0_pay2 a b s = k0_pay2 a' b' s' := by subst ha hb hs; rfl
theorem accAt_zero (X : Vec F S8192x256 .bf16) (i : Fin 4) :
    accAt X i 0 = k0_pay2 (rowBlk X i) (colBlk X 0) (k0_pay1 (F := F)) := rfl
theorem accAt_succ (X : Vec F S8192x256 .bf16) (i : Fin 4) (j : ℕ) :
    accAt X i (j + 1) = k0_pay2 (rowBlk X i) (colBlk X ⟨(j + 1) % 8, Nat.mod_lt _ (by decide)⟩) (accAt X i j) := rfl

/-- After point `n` the accumulator holds the sum over the column blocks `0 … n % 8` of row block `n / 8`. -/
theorem outsAt_acc (c : Dev nD) : ∀ (n : ℕ) (h : n < cfg0.N) (i : Fin 4) (k : ℕ), n / 8 = i.val → n % 8 = k →
    (outsAt m c n h).2 = accAt (V m c main_v6) i k := by
  intro n
  induction n with
  | zero =>
    intro h i k hi hk
    have h0 : (⟨0, h⟩ : Fin cfg0.N).val % 8 = 0 := rfl
    have h1 : ¬(⟨0, h⟩ : Fin cfg0.N).val % 8 = 7 := fun hh => by have h' : (0 : ℕ) % 8 = 7 := hh; omega
    subst hk
    rw [outsAt_first m c ⟨0, h⟩ h0 h1]
    dsimp only
    exact (accFirst_eq c (grid0.coords ⟨0, h⟩) (ms0 ⟨0, h⟩) (hs0 ⟨0, h⟩) (ms1 ⟨0, h⟩) (hs1 ⟨0, h⟩) (ms2 ⟨0, h⟩) (hs2 ⟨0, h⟩) accM (Memref.isWhole_whole _) ((hcondFirst ⟨0, h⟩).mpr h0) (fun hh => h1 ((hcondLast ⟨0, h⟩).mp hh)) (iblk m c 0 ⟨0, h⟩) (iblk m c 1 ⟨0, h⟩)).trans
      ((pay2_congr (iblk0_eq m c ⟨0, h⟩ i hi) (iblk1_eq m c ⟨0, h⟩ 0 rfl) rfl).trans (accAt_zero _ i).symm)
  | succ n ih =>
    intro h i k hi hk
    have hlt : n + 1 < 32 := lt_of_lt_of_eq h hN
    by_cases h0 : (n + 1) % 8 = 0
    · have h1 : ¬(n + 1) % 8 = 7 := by omega
      obtain rfl : k = 0 := by omega
      rw [outsAt_first m c ⟨n + 1, h⟩ h0 h1]
      dsimp only
      exact (accFirst_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) accM (Memref.isWhole_whole _) ((hcondFirst ⟨n + 1, h⟩).mpr h0) (fun hh => h1 ((hcondLast ⟨n + 1, h⟩).mp hh)) (iblk m c 0 ⟨n + 1, h⟩) (iblk m c 1 ⟨n + 1, h⟩)).trans
        ((pay2_congr (iblk0_eq m c ⟨n + 1, h⟩ i hi) (iblk1_eq m c ⟨n + 1, h⟩ 0 h0) rfl).trans (accAt_zero _ i).symm)
    · obtain ⟨k', rfl⟩ : ∃ k', k = k' + 1 := ⟨k - 1, by omega⟩
      have hk8 : k' + 1 < 8 := by omega
      have hprev := ih (Nat.lt_of_succ_lt h) i k' (by omega) (by omega)
      have hcol : (⟨n + 1, h⟩ : Fin cfg0.N).val % 8 = (⟨(k' + 1) % 8, Nat.mod_lt _ (by decide)⟩ : Fin 8).val := by
        show (n + 1) % 8 = (k' + 1) % 8; omega
      by_cases h1 : (n + 1) % 8 = 7
      · rw [outsAt_last m c ⟨n + 1, h⟩ h0 h1]
        dsimp only
        exact (accLast_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) accM (Memref.isWhole_whole _) (fun hh => h0 ((hcondFirst ⟨n + 1, h⟩).mp hh)) ((hcondLast ⟨n + 1, h⟩).mpr h1) (iblk m c 0 ⟨n + 1, h⟩) (iblk m c 1 ⟨n + 1, h⟩) (outsAt m c n (Nat.lt_of_succ_lt h)).2).trans
          ((pay2_congr (iblk0_eq m c ⟨n + 1, h⟩ i hi) (iblk1_eq m c ⟨n + 1, h⟩ _ hcol) hprev).trans (accAt_succ _ i k').symm)
      · rw [outsAt_mid m c ⟨n + 1, h⟩ h0 h1]
        dsimp only
        exact (accMid_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) accM (Memref.isWhole_whole _) (fun hh => h0 ((hcondFirst ⟨n + 1, h⟩).mp hh)) (fun hh => h1 ((hcondLast ⟨n + 1, h⟩).mp hh)) (iblk m c 0 ⟨n + 1, h⟩) (iblk m c 1 ⟨n + 1, h⟩) (outsAt m c n (Nat.lt_of_succ_lt h)).2).trans
          ((pay2_congr (iblk0_eq m c ⟨n + 1, h⟩ i hi) (iblk1_eq m c ⟨n + 1, h⟩ _ hcol) hprev).trans (accAt_succ _ i k').symm)

/-- At a point of the last column block the output staging buffer holds row block `i`'s total. -/
theorem after2_last (c : Dev nD) (t : Fin cfg0.N) (h7 : t.val % 8 = 7) (i : Fin 4) (hi : t.val / 8 = i.val) :
    (dats m 0 c).after 2 t = accAt (V m c main_v6) i 7 := by
  have hlt : t.val < 32 := lt_of_lt_of_eq t.isLt hN
  have h0 : ¬t.val % 8 = 0 := by omega
  have hprev := outsAt_acc m c (t.val - 1) (Nat.lt_of_le_of_lt (Nat.sub_le _ _) t.isLt) i 6 (by omega) (by omega)
  rw [after_2, outsAt_last m c t h0 h7]
  dsimp only
  exact (outLast_eq c (grid0.coords t) (ms0 t) (hs0 t) (ms1 t) (hs1 t) (ms2 t) (hs2 t) accM (Memref.isWhole_whole _) (fun hh => h0 ((hcondFirst t).mp hh)) ((hcondLast t).mpr h7) (iblk m c 0 t) (iblk m c 1 t) (outsAt m c (t.val - 1) (Nat.lt_of_le_of_lt (Nat.sub_le _ _) t.isLt)).2).trans
    ((pay2_congr (iblk0_eq m c t i hi) (iblk1_eq m c t ⟨7, by decide⟩ h7) hprev).trans (accAt_succ _ i 6).symm)

/-! ## The output array -/

/-- What a point of the last column block writes back is its block of `rowsums`. -/
theorem flushed_eq (c : Dev nD) (t : Fin cfg0.N) (hf : (cfg0.win 2).flush t = true) :
    (dats m 0 c).flushed 2 t = ((cfg0.win 2).blk t).view.read (Elt F) (rowsums (V m c main_v6)) := by
  have h7 : t.val % 8 = 7 := (flush0_2 t).mp hf
  have hlt : t.val < 32 := lt_of_lt_of_eq t.isLt hN
  show (cfg0.win 2).cut (grid0.coords t) ((dats m 0 c).after 2 t) = _
  rw [after2_last m c t h7 ⟨t.val / 8, by omega⟩ rfl]
  funext j
  have hj0 : (j 0).val < 2048 := (j 0).isLt
  have hj1 : (j 1).val < 1 := (j 1).isLt
  have hq : ((((cfg0.win 2).blk t).view.emb j) 0).val = 2048 * (t.val / 8) + (j 0).val := by
    show win0_2.index t 0 * 2048 + 1 * (j 0).val = _
    rw [(idx_facts t).2.2.2.2.1]; omega
  rw [View.read_apply]
  show accAt (V m c main_v6) ⟨t.val / 8, _⟩ 7 j
    = accAt (V m c main_v6) ⟨((((cfg0.win 2).blk t).view.emb j) 0).val / 2048, _⟩ 7
        (ix2 (⟨((((cfg0.win 2).blk t).view.emb j) 0).val % 2048, _⟩ : Fin 2048) (⟨0, _⟩ : Fin 1))
  have hi : (⟨((((cfg0.win 2).blk t).view.emb j) 0).val / 2048, by rw [hq]; omega⟩ : Fin 4) = ⟨t.val / 8, by omega⟩ :=
    Fin.ext (by show _ / 2048 = t.val / 8; rw [hq]; omega)
  have hr : (ix2 (⟨((((cfg0.win 2).blk t).view.emb j) 0).val % 2048, Nat.mod_lt _ (by decide)⟩ : Fin 2048) (⟨0, by decide⟩ : Fin 1) : S2048x1.Idx) = j := by
    funext a
    match a with
    | ⟨0, _⟩ => exact Fin.ext (by show _ % 2048 = (j 0).val; rw [hq]; omega)
    | ⟨1, _⟩ => exact Fin.ext (by show 0 = (j 1).val; omega)
  rw [hi, hr]

/-- An index of the output array is in point `t`'s block iff each coordinate is in the block's range. -/
theorem mem_blk (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v7).slice (win0_2.rect t)).set ↔ _
  rw [View.set_slice_whole, Rect.mem_set_unit]
  exact Iff.rfl

/-- The four write-backs cover the output array: it ends at `rowsums` of the normalised rows. -/
theorem final_out (c : Dev nD) : (dats m 0 c).arrAt 2 cfg0.N = rowsums (V m c main_v6) :=
  (dats m 0 c).arrAt_eq_of_cover 2 (rowsums (V m c main_v6)) (flushed_eq m c) fun i => by
    have hi0 : (i 0).val < 8192 := (i 0).isLt
    have hi1 : (i 1).val < 1 := (i 1).isLt
    let t : Fin cfg0.N := ⟨8 * ((i 0).val / 2048) + 7, by rw [hN]; omega⟩
    have ht : t.val = 8 * ((i 0).val / 2048) + 7 := rfl
    refine ⟨t, (flush0_2 t).mpr (by rw [ht]; omega), ?_⟩
    rw [mem_blk]
    intro a
    match a with
    | ⟨0, _⟩ =>
      show win0_2.index t 0 * 2048 ≤ (i 0).val ∧ (i 0).val < win0_2.index t 0 * 2048 + 2048
      rw [(idx_facts t).2.2.2.2.1, ht]; omega
    | ⟨1, _⟩ =>
      show win0_2.index t 1 * 1 ≤ (i 1).val ∧ (i 1).val < win0_2.index t 1 * 1 + 1
      rw [(idx_facts t).2.2.2.2.2]; omega

/-! ## The program's result -/

/-- The arrays the host lines before the region leave: the normalised rows and their bf16 copy. -/
theorem V_v5 (c : Dev nD) : V m c main_v5 = xnArr (m ((c : Thread nD τ).loc main_arg0)) := by
  dsimp only [V, V0, hostOps0]; after_results; rfl
theorem V_v6 (c : Dev nD) : V m c main_v6 = truncf .bf16 (xnArr (m ((c : Thread nD τ).loc main_arg0))) bitsLt_bf16_f32 := by
  dsimp only [V, V0, hostOps0]; after_results; rfl

/-- The result buffer ends at the program's pure term of the argument. -/
theorem W3_result (c : Dev nD) : W3 m c (Proc.devRef .tc main_v27) = kernelTerm (m ((c : Thread nD τ).loc main_arg0)) := by
  have e7 : W2 m c (Proc.devRef .tc main_v7) = rowsums (truncf .bf16 (xnArr (m ((c : Thread nD τ).loc main_arg0))) bitsLt_bf16_f32) := by
    rw [W2_out, final_out, V_v6]
  have e5 : W2 m c (Proc.devRef .tc main_v5) = xnArr (m ((c : Thread nD τ).loc main_arg0)) :=
    (W2_of_ne m c main_v5 (by decide)).trans (V_v5 m c)
  show StableHlo.after hostOps1 (W2 m c) (Proc.devRef .tc main_v27) = _
  generalize W2 m c = Wv at e7 e5 ⊢
  dsimp only [hostOps1]
  after_results
  rw [e7, e5]
  rfl

end Cert.KernelIdeal.Hand

end
-- ==== Proof.KvLayout.lean ====
/-
  Layout operations and sums read at an index given by coordinates, in the column forms this certificate meets: a
  vector viewed as a one-column matrix and back, a vector broadcast along a new unit column, a one-column matrix
  broadcast over its columns, a scalar broadcast to any shape; a lane sum and the host's row sum read as the sum over
  the column coordinate, the host's sum of a vector as the sum over its coordinate.
-/
import Idealize.ShloMosaic.Lib.ValueLayout
import Idealize.ShloMosaic.PureOps.Ideal.Laws

noncomputable section

open scoped BigOperators

namespace Cert.KernelIdeal.KValue

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array broadcast along a new unit column reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x _ _ fun ax => by
    match ax with
    | ⟨0, _⟩ =>
      show i.val = if a = 1 then 0 else i.val
      split
      · have := i.isLt; omega
      · rfl

/-- An `[a, 1]` array broadcast over `b` columns reads, at `(i, j)`, the operand at `(i, 0)`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x _ _ fun ax => by
    match ax with
    | ⟨0, _⟩ =>
      show i.val = if a = 1 then 0 else i.val
      split
      · have := i.isLt; omega
      · rfl
    | ⟨1, _⟩ => rfl

/-- A scalar broadcast to any shape reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x _ _ fun ax => ax.elim0

/-- A lane sum of an `[m, n]` array into `[m]`, read at `p`: the sum over the lane coordinate. -/
theorem laneSum_apply {φ : FTy} {m n : ℕ} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ src acc h hφ hacc (ix1 p) = ∑ l : Fin n, src (ix2 p l) :=
  (Ideal.multiReduction_add_single src acc h hφ hacc (ix1 p)).trans
    (Finset.sum_congr rfl fun l _ => congrArg src (funext fun c => Fin.ext (by
      match c with
      | ⟨0, _⟩ => rfl
      | ⟨1, _⟩ => rfl)))

/-- The host's sum over the columns of an `[m, n]` array from a splat initial value, read at `p`: the initial
    value plus the sum over the column coordinate. -/
theorem hostRowSum_apply {φ : FTy} {m n : ℕ} (x : FVec Ideal ⟨2, ![m, n]⟩ φ) (b : BitVec φ.bits)
    (h' : (⟨2, ![m, n]⟩ : Shape).ReducesTo [1] ⟨1, ![m]⟩) (hu : 0 < (⟨0, ![]⟩ : Shape).numel)
    (h : (⟨2, ![m, n]⟩ : Shape).Reduces [1] ⟨1, ![m]⟩) (p : Fin m) :
    Host.reduceAdd (F := Ideal) x (constant ⟨0, ![]⟩ φ b) h' hu (ix1 p)
      = Ideal.ofBits φ b + ∑ l : Fin n, x (ix2 p l) := by
  show Ideal.hostReduceAdd h' x (Ideal.ofBits φ b) (ix1 p) = _
  refine (Ideal.hostReduceAdd_single h' h x _ (ix1 p)).trans ?_
  refine congrArg (Ideal.ofBits φ b + ·) (Finset.sum_congr rfl fun l _ => congrArg x (funext fun c => Fin.ext (by
    match c with
    | ⟨0, _⟩ => rfl
    | ⟨1, _⟩ => rfl)))

/-- A rank-1 index set is its coordinate range … -/
def idxEquiv1 {n : ℕ} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

/-- The host's sum of a vector from a splat initial value: the initial value plus the sum over the coordinate. -/
theorem hostVecSum_apply {φ : FTy} {m : ℕ} (x : FVec Ideal ⟨1, ![m]⟩ φ) (b : BitVec φ.bits)
    (h' : (⟨1, ![m]⟩ : Shape).ReducesTo [0] ⟨0, ![]⟩) (hu : 0 < (⟨0, ![]⟩ : Shape).numel)
    (j : (⟨0, ![]⟩ : Shape).Idx) :
    Host.reduceAdd (F := Ideal) x (constant ⟨0, ![]⟩ φ b) h' hu j
      = Ideal.ofBits φ b + ∑ r : Fin m, x (ix1 r) := by
  show Ideal.hostReduceAdd h' x (Ideal.ofBits φ b) j = _
  rw [Ideal.hostReduceAdd_total h' (fun b => b.elim0), sum_idx1]

end Cert.KernelIdeal.KValue

end
-- ==== Proof.KvRowsum.lean ====
/-
  The region's output array at the ideal instance: every row of it is the sum, over all 8192 rows `s`, of
  `exp ((∑ d, X r d · X s d) · 2)`.  First one step of the accumulator (the matrix product of a row block with a
  transposed column block, scaled, exponentiated and summed along the lanes, added to what was there), then the
  eight steps, then the regrouping of the eight blocks' sums into one sum over all rows.
-/
import proofs.«135387_j44985487459095_2_alg».proof.Proof.Ki.Term
import proofs.«135387_j44985487459095_2_alg».proof.Proof.KvLayout

noncomputable section

open scoped BigOperators

namespace Cert.KernelIdeal.KValue

open Idealize.ShloMosaic Idealize.ShloMosaic.ValueIdx
open Cert.KernelIdeal Cert.KernelIdeal.Gen Cert.KernelIdeal.Hand

/-! ## The matrix product at an index -/

theorem lhs_row (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl

theorem rhs_col (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The product of a `2048 × 256` block with a `256 × 1024` block into a zero accumulator, at `(p, l)`: the
    sum over the shared coordinate. -/
theorem matmul_apply_pl (A : FVec Ideal S2048x256 .bf16) (B : FVec Ideal S256x1024 .bf16) (p : Fin 2048) (l : Fin 1024) :
    matmul dot_S2048x256_S256x1024_S2048x1024_1_0_0_1_n_n none A B (constant S2048x1024 .f32 0x00000000#32) (ix2 p l)
      = ∑ d : Fin 256, A (ix2 p d) * B (ix2 d l) := by
  refine (Ideal.matmul_constant_zero_apply _ none A B (ix2 p l)).trans ?_
  rw [← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 p l)
      ((contrEquiv1 dot_S2048x256_S256x1024_S2048x1024_1_0_0_1_n_n 256 rfl rfl).symm k) = ix2 p k :=
    funext fun a => Fin.ext (by
      match a with
      | ⟨0, _⟩ => exact lhs_row _ _
      | ⟨1, _⟩ => exact (dot_S2048x256_S256x1024_S2048x1024_1_0_0_1_n_n.lhsIdx_val_of_single rfl _ _).trans hk)
  have er : dot_S2048x256_S256x1024_S2048x1024_1_0_0_1_n_n.rhsIdx (ix2 p l)
      ((contrEquiv1 dot_S2048x256_S256x1024_S2048x1024_1_0_0_1_n_n 256 rfl rfl).symm k) = ix2 k l :=
    funext fun a => Fin.ext (by
      match a with
      | ⟨0, _⟩ => exact (dot_S2048x256_S256x1024_S2048x1024_1_0_0_1_n_n.rhsIdx_val_of_single rfl _ _).trans hk
      | ⟨1, _⟩ => exact rhs_col _ _)
  rw [el, er]

/-! ## One step of the accumulator -/

/-- The literal `2.0` the kernel scales the products by. -/
abbrev two : EReal := Ideal.ofBits .f32 0x40000000#32

/-- One step of the accumulator at row `p` of the block: what was there, plus the sum over the column block's 1024
    rows `l` of `exp ((∑ d, xr p d · xc l d) · 2)`. -/
theorem pay2_apply (xr : Vec Ideal S2048x256 .bf16) (xc : Vec Ideal S1024x256 .bf16) (acc : Vec Ideal S2048x1 .f32)
    (p : Fin 2048) (u : Fin 1) :
    k0_pay2 (F := Ideal) xr xc acc (ix2 p u)
      = acc (ix2 p u) + ∑ l : Fin 1024, Ideal.exp ((∑ d : Fin 256, xr (ix2 p d) * xc (ix2 l d)) * two) := by
  unfold k0_pay2
  dsimp only
  refine (congrFun (shapeCast_self _ _) (ix2 p u)).trans ?_
  show acc (ix2 p u) + shapeCast S2048x1 _ shapeCasts_S2048_S2048x1 (ix2 p u) = _
  refine congrArg (acc (ix2 p u) + ·) ?_
  refine (shapeCast_a_a1_apply _ _ p u).trans ?_
  refine (laneSum_apply _ _ _ _ _ p).trans ?_
  refine Finset.sum_congr rfl fun l _ => ?_
  show Ideal.exp (matmul (F := Ideal) _ none _ _ _ (ix2 p l) * two) = _
  refine congrArg (fun z => Ideal.exp (z * two)) ?_
  refine (matmul_apply_pl _ _ p l).trans ?_
  refine Finset.sum_congr rfl fun d _ => ?_
  exact congrArg₂ (· * ·) (congrFun (shapeCast_self xr _) _)
    ((transpose_ix2_apply _ _ d l).trans (congrFun (shapeCast_self xc _) _))

/-- The accumulator starts at zero. -/
theorem pay1_apply (p : Fin 2048) (u : Fin 1) : k0_pay1 (F := Ideal) (ix2 p u) = 0 := by
  unfold k0_pay1
  refine (congrFun (shapeCast_self _ _) (ix2 p u)).trans ?_
  exact Ideal.ofBits_zero_f32

/-! ## The eight steps -/

/-- The term the kernel adds up for the pair of rows `(r, s)`. -/
def ek (X : S8192x256.Idx → EReal) (r s : Fin 8192) : EReal :=
  Ideal.exp ((∑ d : Fin 256, X (ix2 r d) * X (ix2 s d)) * two)

/-- Column block `k`'s share (blocks counted modulo 8) of row `r`'s sum. -/
def blockSum (X : S8192x256.Idx → EReal) (r : Fin 8192) (k : ℕ) : EReal :=
  ∑ l : Fin 1024, ek X r ⟨1024 * (k % 8) + l.val, by
    have := Nat.mod_lt k (by decide : 0 < 8); have := l.isLt; omega⟩

/-- After column block `j` the accumulator holds the shares of blocks `0 … j`. -/
theorem accAt_apply (X : Vec Ideal S8192x256 .bf16) (i : Fin 4) (p : Fin 2048) (u : Fin 1) (j : ℕ) :
    accAt (F := Ideal) X i j (ix2 p u)
      = ∑ k ∈ Finset.range (j + 1), blockSum X ⟨2048 * i.val + p.val, by have := i.isLt; have := p.isLt; omega⟩ k := by
  induction j with
  | zero =>
    show k0_pay2 (F := Ideal) (rowBlk X i) (colBlk X 0) (k0_pay1 (F := Ideal)) (ix2 p u) = _
    rw [pay2_apply, pay1_apply, zero_add, Finset.sum_range_one]
    rfl
  | succ j ih =>
    show k0_pay2 (F := Ideal) (rowBlk X i) (colBlk X ⟨(j + 1) % 8, Nat.mod_lt _ (by decide)⟩) (accAt (F := Ideal) X i j)
      (ix2 p u) = _
    rw [pay2_apply, ih, Finset.sum_range_succ _ (j + 1)]
    rfl

/-! ## The eight blocks' sums as one sum over all rows -/

/-- A sum over 8192 positions is the sum over 8 blocks of the sums over the 1024 positions of each. -/
theorem sum_blocks {M : Type*} [AddCommMonoid M] (f : Fin 8192 → M) :
    ∑ k ∈ Finset.range 8, ∑ l : Fin 1024, f ⟨1024 * (k % 8) + l.val, by
        have := Nat.mod_lt k (by decide : 0 < 8); have := l.isLt; omega⟩
      = ∑ s : Fin 8192, f s := by
  rw [Finset.sum_range, ← Equiv.sum_comp (finProdFinEquiv (m := 8) (n := 1024)) f, Fintype.sum_prod_type]
  refine Finset.sum_congr rfl fun j _ => Finset.sum_congr rfl fun l _ => congrArg f (Fin.ext ?_)
  show 1024 * (j.val % 8) + l.val = l.val + 1024 * j.val
  rw [Nat.mod_eq_of_lt j.isLt, Nat.add_comm]

/-- THE REGION'S OUTPUT at row `r`: the sum over all rows `s` of `exp ((∑ d, X r d · X s d) · 2)`. -/
theorem rowsums_apply (X : Vec Ideal S8192x256 .bf16) (r : Fin 8192) (u : Fin 1) :
    rowsums (F := Ideal) X (ix2 r u) = ∑ s : Fin 8192, ek X r s := by
  show accAt (F := Ideal) X ⟨r.val / 2048, _⟩ 7 (ix2 ⟨r.val % 2048, _⟩ ⟨0, _⟩) = _
  rw [accAt_apply]
  have hr : (⟨2048 * (r.val / 2048) + r.val % 2048, by have := r.isLt; omega⟩ : Fin 8192) = r :=
    Fin.ext (Nat.div_add_mod r.val 2048)
  rw [hr]
  exact sum_blocks (ek X r)

end Cert.KernelIdeal.KValue

end
-- ==== Proof.Spec.lean ====
/-
  The mathematics both programs compute, stated once over the extended reals.

  For an array `x` of 8192 rows of 256 entries: each row is divided by its Euclidean norm (the square root of
  the sum of its squares); `sim r s` is the inner product of normalised rows `r` and `s`; `esim r s` is
  `exp (sim r s / 0.5)`; row `r`'s partner is row `r + 4096` modulo 8192; the loss is the mean over the rows
  of `-log (esim r (partner r) / ((∑ s, esim r s) - esim r r))`.  Every operation is the extended reals'
  (division, square root, exponential and logarithm with their conventions at 0 and at the infinities), so the
  function is total and nothing here asks the entries to be finite.
-/
import Idealize.ShloMosaic.PureOps.Ideal
import Idealize.ShloMosaic.Lib.ValueIdx

noncomputable section

open scoped BigOperators

namespace Cert.NtXent

open Idealize.ShloMosaic Idealize.ShloMosaic.ValueIdx

/-- The array's shape, the scalar shape. -/
abbrev SX : Shape := ⟨2, ![8192, 256]⟩
abbrev S0 : Shape := ⟨0, ![]⟩

/-- The two float literals of the formula, kept as their binary words: one half, and the number of rows. -/
abbrev half : EReal := Ideal.ofBits .f32 0x3F000000#32
abbrev rows : EReal := Ideal.ofBits .f32 0x46000000#32

/-- Row `r`'s Euclidean norm. -/
def nrm (x : SX.Idx → EReal) (r : Fin 8192) : EReal := Ideal.sqrt (∑ d : Fin 256, x (ix2 r d) * x (ix2 r d))
/-- The normalised entry. -/
def xn (x : SX.Idx → EReal) (r : Fin 8192) (d : Fin 256) : EReal := Ideal.div (x (ix2 r d)) (nrm x r)
/-- The inner product of two normalised rows. -/
def sim (x : SX.Idx → EReal) (r s : Fin 8192) : EReal := ∑ d : Fin 256, xn x r d * xn x s d
/-- Its exponential at temperature one half. -/
def esim (x : SX.Idx → EReal) (r s : Fin 8192) : EReal := Ideal.exp (Ideal.div (sim x r s) half)
/-- The row paired with row `r`. -/
def partner (r : Fin 8192) : Fin 8192 := ⟨(r.val + 4096) % 8192, Nat.mod_lt _ (by decide)⟩
/-- One row's term of the loss. -/
def term (x : SX.Idx → EReal) (r : Fin 8192) : EReal :=
  -Ideal.log (Ideal.div (esim x r (partner r)) ((∑ s : Fin 8192, esim x r s) - esim x r r))
/-- The loss: the mean of the rows' terms, as a rank-0 array. -/
def loss (x : SX.Idx → EReal) : S0.Idx → EReal := fun _ => Ideal.div (∑ r : Fin 8192, term x r) rows

end Cert.NtXent

end
-- ==== Proof.KvTail.lean ====
/-
  The host lines around the region at the ideal instance.  The rows divided by their norms are, entry by entry,
  the specification's normalised entries; the lines after the region turn the region's output `rs` and the
  normalised rows `v` into the mean over the rows `r` of
  `-log (exp (⟨v r, v (partner r)⟩ / 0.5) / (rs r - exp (⟨v r, v r⟩ / 0.5)))`.
-/
import proofs.«135387_j44985487459095_2_alg».proof.Proof.Ki.Term
import proofs.«135387_j44985487459095_2_alg».proof.Proof.Spec
import proofs.«135387_j44985487459095_2_alg».proof.Proof.KvLayout

noncomputable section

open scoped BigOperators

namespace Cert.KernelIdeal.KValue

open Idealize.ShloMosaic Idealize.ShloMosaic.ValueIdx
open Cert.KernelIdeal Cert.KernelIdeal.Gen Cert.KernelIdeal.Hand
open Cert.NtXent (half rows partner)

/-- The inner product of rows `r` and `s` of an array. -/
def dotRows (v : S8192x256.Idx → EReal) (r s : Fin 8192) : EReal := ∑ d : Fin 256, v (ix2 r d) * v (ix2 s d)

/-! ## The rows divided by their norms -/

/-- The normalised array at `(r, d)` is the specification's normalised entry. -/
theorem xnArr_apply (x : FVec Ideal S8192x256 .f32) (r : Fin 8192) (d : Fin 256) :
    xnArr (F := Ideal) x (ix2 r d) = Cert.NtXent.xn x r d := by
  unfold xnArr Cert.NtXent.xn Cert.NtXent.nrm
  show Ideal.div (x (ix2 r d)) (broadcastInDim S8192x256 _ bcast_S8192x1_S8192x256_0_1 _ (ix2 r d)) = _
  refine congrArg (Ideal.div (x (ix2 r d))) ?_
  refine (broadcastInDim_a1_ab_apply _ _ r d).trans ?_
  show Ideal.sqrt (broadcastInDim S8192x1 _ bcast_S8192_S8192x1_0 _ (ix2 r (0 : Fin 1))) = _
  refine congrArg Ideal.sqrt ?_
  refine (broadcastInDim_a_a1_apply _ _ r 0).trans ?_
  refine (hostRowSum_apply _ _ _ _ (by decide) r).trans ?_
  rw [Ideal.ofBits_zero_f32, zero_add]
  rfl

/-! ## The lines after the region -/

/-- The inner products of each of the first 4096 rows with the row 4096 below it, as the host computes them. -/
abbrev pairDots (v : FVec Ideal S8192x256 .f32) : FVec Ideal S4096 .f32 :=
  Host.reduceAdd (F := Ideal)
    (mulf (extractStridedSlice S4096x256 ![0, 0] v slices_S8192x256_S4096x256_0_0)
      (extractStridedSlice S4096x256 ![4096, 0] v slices_S8192x256_S4096x256_4096_0))
    (constant S_ .f32 0x00000000#32) reducesTo_S4096x256_S4096_d1 h_S_

theorem pairDot_apply (v : FVec Ideal S8192x256 .f32) (q : Fin 4096) :
    pairDots v (ix1 q)
      = dotRows v ⟨q.val, by have := q.isLt; omega⟩ ⟨4096 + q.val, by have := q.isLt; omega⟩ := by
  refine (hostRowSum_apply _ _ _ _ (by decide) q).trans ?_
  rw [Ideal.ofBits_zero_f32, zero_add]
  refine Finset.sum_congr rfl fun d _ => ?_
  show extractStridedSlice S4096x256 ![0, 0] v slices_S8192x256_S4096x256_0_0 (ix2 q d)
      * extractStridedSlice S4096x256 ![4096, 0] v slices_S8192x256_S4096x256_4096_0 (ix2 q d) = _
  exact congrArg₂ (· * ·) (slice2_axis0_apply 0 v _ q d _ (Nat.zero_add _).symm) (slice2_axis0_apply 4096 v _ q d _ rfl)

/-- Those 4096 inner products laid out twice read, at row `r`, the inner product of row `r` with its partner. -/
theorem posTerm_apply (v : FVec Ideal S8192x256 .f32) (P : S4096.Idx → EReal)
    (hP : ∀ q : Fin 4096, P (ix1 q) = dotRows v ⟨q.val, by have := q.isLt; omega⟩ ⟨4096 + q.val, by have := q.isLt; omega⟩)
    (r : Fin 8192) :
    concatenate S8192 0 [⟨S4096, P⟩, ⟨S4096, P⟩] concatenates_S4096_S4096_S8192_d0 (ix1 r) = dotRows v r (partner r) := by
  by_cases hr : r.val < 4096
  · refine (concatenate_pair_apply_left 0 P P _ (ix1 r) rfl (ix1 (⟨r.val, hr⟩ : Fin 4096))
      (fun b => by match b with | ⟨0, _⟩ => rfl)).trans ?_
    rw [hP]
    have e1 : (⟨r.val, by omega⟩ : Fin 8192) = r := Fin.ext rfl
    have e2 : (⟨4096 + r.val, by omega⟩ : Fin 8192) = partner r := Fin.ext (by
      show 4096 + r.val = (r.val + 4096) % 8192
      omega)
    show dotRows v ⟨r.val, _⟩ ⟨4096 + r.val, _⟩ = _
    rw [e1, e2]
  · have hr' : r.val - 4096 < 4096 := by have := r.isLt; omega
    refine (concatenate_pair_apply_right 0 P P _ (ix1 r) rfl rfl (ix1 (⟨r.val - 4096, hr'⟩ : Fin 4096))
      (fun b hb => absurd (Subsingleton.elim _ _) hb) (by
        show r.val - 4096 + 4096 = r.val
        omega)).trans ?_
    rw [hP]
    have e1 : (⟨r.val - 4096, by omega⟩ : Fin 8192) = partner r := Fin.ext (by
      show r.val - 4096 = (r.val + 4096) % 8192
      have := r.isLt; omega)
    have e2 : (⟨4096 + (r.val - 4096), by omega⟩ : Fin 8192) = r := Fin.ext (by
      show 4096 + (r.val - 4096) = r.val
      omega)
    show dotRows v ⟨r.val - 4096, _⟩ ⟨4096 + (r.val - 4096), _⟩ = _
    rw [e1, e2]
    unfold dotRows
    exact Finset.sum_congr rfl fun d _ => mul_comm _ _

/-- Each row's inner product with itself, as the host computes it. -/
theorem selfDot_apply (v : FVec Ideal S8192x256 .f32) (r : Fin 8192) :
    Host.reduceAdd (F := Ideal) (mulf v v) (constant S_ .f32 0x00000000#32) reducesTo_S8192x256_S8192_d1 h_S_ (ix1 r)
      = dotRows v r r := by
  refine (hostRowSum_apply _ _ _ _ (by decide) r).trans ?_
  rw [Ideal.ofBits_zero_f32, zero_add]
  rfl

/-- THE LINES AFTER THE REGION: the mean over the rows of the log-ratio terms. -/
theorem tail_apply (rs : FVec Ideal S8192x1 .f32) (v : FVec Ideal S8192x256 .f32) (j : S_.Idx) :
    tail (F := Ideal) rs v j
      = Ideal.div (∑ r : Fin 8192, -Ideal.log (Ideal.div (Ideal.exp (Ideal.div (dotRows v r (partner r)) half))
          (rs (ix2 r (0 : Fin 1)) - Ideal.exp (Ideal.div (dotRows v r r) half)))) rows := by
  unfold tail
  show Ideal.div (Host.reduceAdd (F := Ideal) _ (constant S_ .f32 0x00000000#32) reducesTo_S8192_S_d0 h_S_ j) rows = _
  refine congrArg (fun z => Ideal.div z rows) ?_
  refine (hostVecSum_apply _ _ _ _ j).trans ?_
  rw [Ideal.ofBits_zero_f32, zero_add]
  refine Finset.sum_congr rfl fun r _ => ?_
  dsimp only [Host.negf, Host.log, Host.divf, Host.exp, subf]
  rw [posTerm_apply v (pairDots v) (pairDot_apply v) r, selfDot_apply v r, shapeCast_a1_a_apply rs _ r,
    broadcastInDim_scalar_apply _ _ (ix1 r)]
  rfl

end Cert.KernelIdeal.KValue

end
-- ==== Proof.KvBridge.lean ====
/-
  The kernel program's value is the specification's loss.  The region's output at row `r` is
  `∑ s, exp (⟨xn r, xn s⟩ · 2)`, and `z · 2 = z / 0.5` on every extended real, so it is `∑ s, esim r s`; the lines
  after the region subtract `esim r r`, divide `esim r (partner r)` by the difference, and take the mean of the
  negated logarithms: the specification's formula term by term.
-/
import proofs.«135387_j44985487459095_2_alg».proof.Proof.KvRowsum
import proofs.«135387_j44985487459095_2_alg».proof.Proof.KvTail

noncomputable section

open scoped BigOperators

namespace Cert.KernelIdeal.KValue

open Idealize.ShloMosaic Idealize.ShloMosaic.ValueIdx
open Cert.KernelIdeal Cert.KernelIdeal.Gen Cert.KernelIdeal.Hand
open Cert.NtXent (half rows partner)

/-! ## The two literals -/

/-- The word `0x40000000` denotes `2`. -/
theorem ofBits_two : Ideal.ofBits .f32 0x40000000#32 = ((2 : ℝ) : EReal) := by
  simp [Ideal.ofBits, Ideal.ieee, -EReal.coe_mul]; norm_num

/-- The word `0x3F000000` denotes one half. -/
theorem ofBits_half : Ideal.ofBits .f32 0x3F000000#32 = ((1 / 2 : ℝ) : EReal) := by
  simp [Ideal.ofBits, Ideal.ieee, -EReal.coe_mul]; norm_num

/-- Doubling is division by one half, at the infinities too. -/
theorem mul_two_eq_div_half (z : EReal) : z * two = Ideal.div z half := by
  show z * Ideal.ofBits .f32 0x40000000#32 = Ideal.div z (Ideal.ofBits .f32 0x3F000000#32)
  rw [ofBits_two, ofBits_half, Ideal.div_coe (by norm_num : (1 / 2 : ℝ) ≠ 0)]
  norm_num

/-! ## The pieces against the specification -/

/-- Inner products of the normalised array's rows are the specification's similarities. -/
theorem dotRows_xn (x : FVec Ideal S8192x256 .f32) (r s : Fin 8192) :
    dotRows (xnArr (F := Ideal) x) r s = Cert.NtXent.sim x r s := by
  unfold dotRows Cert.NtXent.sim
  exact Finset.sum_congr rfl fun d _ => by rw [xnArr_apply, xnArr_apply]

/-- The term the region adds up for `(r, s)`, of the normalised array's bf16 copy, is `esim r s`. -/
theorem ek_xn (x : FVec Ideal S8192x256 .f32) (r s : Fin 8192) :
    ek (truncf .bf16 (xnArr (F := Ideal) x) bitsLt_bf16_f32) r s = Cert.NtXent.esim x r s := by
  unfold ek Cert.NtXent.esim
  rw [mul_two_eq_div_half]
  refine congrArg (fun z => Ideal.exp (Ideal.div z half)) ?_
  exact dotRows_xn x r s

/-! ## The theorem -/

/-- THE KERNEL PROGRAM'S VALUE at the ideal instance is the NT-Xent loss of its argument. -/
theorem kernelTerm_eq (x : FVec Ideal Cert.KernelIdeal.S8192x256 .f32) :
    Cert.KernelIdeal.Hand.kernelTerm (F := Ideal) x = Cert.NtXent.loss x := by
  funext j
  unfold kernelTerm
  rw [tail_apply]
  unfold Cert.NtXent.loss Cert.NtXent.term
  refine congrArg (fun z => Ideal.div z rows) (Finset.sum_congr rfl fun r _ => ?_)
  rw [rowsums_apply, dotRows_xn, dotRows_xn]
  simp only [ek_xn]
  rfl

end Cert.KernelIdeal.KValue

end
-- ==== Proof.RefRun.lean ====
/-
  The reference program's run, written out: @main as the list of its 85 host operations (the three outlined
  functions' operations standing in their calls' places), and what the result buffer holds at the end, stated
  through a short tower of named arrays: the rows' norms, the normalised array, the inner products, their
  exponentials, the two index tables, the two gathered columns, the denominators, the rows' terms, the mean.
-/
import proofs.«135387_j44985487459095_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The integer side: the two tables of start indices -/

/-- The row numbers 0 … 8191 as 32-bit words. -/
def iIota : IVec S8192 32 := iotaInDim S8192 32 0
/-- A scalar spread over the rows. -/
def iBc {w : Nat} (v : IVec S_ w) : IVec S8192 w := broadcastInDim S8192 ![] bcast_S_S8192 v
/-- The divisor of the remainder: 8192, or 1 were it 0. -/
def iDiv : IVec S_ 32 :=
  select (cmpi .eq (id (constantI S_ 32 8192#32)) (constantI S_ 32 0#32)) (constantI S_ 32 1#32) (id (constantI S_ 32 8192#32))
/-- Row number plus 4096. -/
def iShift : IVec S8192 32 := addi iIota (iBc (constantI S_ 32 4096#32))
/-- Its truncated remainder by the divisor. -/
def iTrunc : IVec S8192 32 := Host.remsi iShift (iBc iDiv)
/-- Where the truncated remainder is not zero and its sign is not the divisor's. -/
def iFix : IVec S8192 1 :=
  andi (cmpi .ne (cmpi .slt iTrunc (iBc (constantI S_ 32 0#32))) (iBc (cmpi .slt iDiv (constantI S_ 32 0#32))))
    (cmpi .ne iTrunc (iBc (constantI S_ 32 0#32)))
/-- The floored remainder: the truncated one, the divisor added where the signs differ. -/
def iRem : IVec S8192 32 := select iFix (addi iTrunc (iBc iDiv)) iTrunc
/-- A negative index counted from the end: 8192 added where the word is negative. -/
def iWrap (v : IVec S8192 32) : IVec S8192 32 :=
  select (cmpi .slt v (iBc (constantI S_ 32 0#32))) (addi v (iBc (constantI S_ 32 8192#32))) v
/-- A vector of the rows as a column. -/
def iCol (v : IVec S8192 32) : IVec S8192x1 32 := broadcastInDim S8192x1 ![0] bcast_S8192_S8192x1_0 v
/-- Two vectors of the rows side by side: the table of start indices (row, column). -/
def iPair (a b : IVec S8192 32) : IVec S8192x2 32 :=
  concatenate S8192x2 1 [⟨S8192x1, iCol a⟩, ⟨S8192x1, iCol b⟩] concatenates_S8192x1_S8192x1_S8192x2_d1
/-- The start indices of the positive pairs: (row, (row + 4096) mod 8192). -/
def iPosIdx : IVec S8192x2 32 := iPair (iWrap iIota) (iWrap iRem)
/-- The start indices of the diagonal: (row, row). -/
def iSelfIdx : IVec S8192x2 32 := iPair (iWrap iIota) (iWrap iIota)

/-! ## The float side -/

section Float
variable {F : FTy → Type} [FloatOps F]

/-- The rows' Euclidean norms, as a column. -/
def vNrm (x : FVec F S8192x256 .f32) : FVec F S8192x1 .f32 :=
  Host.sqrt (broadcastInDim S8192x1 ![0] bcast_S8192_S8192x1_0
    (Host.reduceAdd (mulf x x) (constant S_ .f32 0x00000000#32) reducesTo_S8192x256_S8192_d1 h_S_))
/-- The array with each row divided by its norm. -/
def vXn (x : FVec F S8192x256 .f32) : FVec F S8192x256 .f32 :=
  Host.divf x (broadcastInDim S8192x256 ![0, 1] bcast_S8192x1_S8192x256_0_1 (vNrm x))
/-- The inner products of the normalised rows. -/
def vSim (x : FVec F S8192x256 .f32) : FVec F S8192x8192 .f32 :=
  Host.dotGeneral dot_S8192x256_S256x8192_S8192x8192_1_0_0_1_n_n none (vXn x)
    (transpose S256x8192 [1, 0] (vXn x) transposes_S8192x256_S256x8192_1_0)
/-- Their exponentials at temperature one half. -/
def vEsim (x : FVec F S8192x256 .f32) : FVec F S8192x8192 .f32 :=
  Host.exp (Host.divf (vSim x) (broadcastInDim S8192x8192 ![] bcast_S_S8192x8192 (constant S_ .f32 0x3F000000#32)))
/-- Each row's entry at its partner's column. -/
def vPos (x : FVec F S8192x256 .f32) : FVec F S8192 .f32 := Host.gather gather_S8192x8192_S8192x2_S8192_n_01_n_n_01_1_11 (vEsim x) iPosIdx
/-- Each row's diagonal entry. -/
def vSelf (x : FVec F S8192x256 .f32) : FVec F S8192 .f32 := Host.gather gather_S8192x8192_S8192x2_S8192_n_01_n_n_01_1_11 (vEsim x) iSelfIdx
/-- Each row's sum less its diagonal entry. -/
def vDen (x : FVec F S8192x256 .f32) : FVec F S8192 .f32 :=
  subf (Host.reduceAdd (vEsim x) (constant S_ .f32 0x00000000#32) reducesTo_S8192x8192_S8192_d1 h_S_) (vSelf x)
/-- Each row's term of the loss. -/
def vTerm (x : FVec F S8192x256 .f32) : FVec F S8192 .f32 := Host.negf (Host.log (Host.divf (vPos x) (vDen x)))
/-- The result: the terms' sum divided by the number of rows. -/
def refTerm (x : FVec F S8192x256 .f32) : FVec F S_ .f32 :=
  Host.divf (Host.reduceAdd (vTerm x) (constant S_ .f32 0x00000000#32) reducesTo_S8192_S_d0 h_S_) (constant S_ .f32 0x46000000#32)

/-! ## The program as a list of operations -/

/-- @main's 85 operations, in order; a called function's operations stand in its call's place. -/
abbrev ops : List (HloOp τ sig (Elt F)) :=
  [ binary main_arg0 main_arg0 main_call0_v0 ((mulf) : (⟨S8192x256, .f32⟩ : BufTy).Contents (Elt F) → (⟨S8192x256, .f32⟩ : BufTy).Contents (Elt F) → (⟨S8192x256, .f32⟩ : BufTy).Contents (Elt F)),
    nullary main_call0_cst (constant S_ .f32 0x00000000#32),
    binary main_call0_v0 main_call0_cst main_call0_v1 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_call0_v1 main_call0_v2 ((broadcastInDim S8192x1 ![0] bcast_S8192_S8192x1_0) : (⟨S8192, .f32⟩ : BufTy).Contents (Elt F) → (⟨S8192x1, .f32⟩ : BufTy).Contents (Elt F)),
    unary main_call0_v2 main_v0 ((Host.sqrt) : (⟨S8192x1, .f32⟩ : BufTy).Contents (Elt F) → (⟨S8192x1, .f32⟩ : BufTy).Contents (Elt F)),
    unary main_v0 main_v1 (broadcastInDim S8192x256 ![0, 1] bcast_S8192x1_S8192x256_0_1 : (⟨S8192x1, .f32⟩ : BufTy).Contents (Elt F) → (⟨S8192x256, .f32⟩ : BufTy).Contents (Elt F)),
    binary main_arg0 main_v1 main_v2 (Host.divf : (⟨S8192x256, .f32⟩ : BufTy).Contents (Elt F) → (⟨S8192x256, .f32⟩ : BufTy).Contents (Elt F) → (⟨S8192x256, .f32⟩ : BufTy).Contents (Elt F)),
    unary main_v2 main_v3 ((transpose S256x8192 [1, 0] · transposes_S8192x256_S256x8192_1_0) : (⟨S8192x256, .f32⟩ : BufTy).Contents (Elt F) → (⟨S256x8192, .f32⟩ : BufTy).Contents (Elt F)),
    binary main_v2 main_v3 main_v4 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3F000000#32),
    unary main_cst main_v5 (broadcastInDim S8192x8192 ![] bcast_S_S8192x8192 : (⟨S_, .f32⟩ : BufTy).Contents (Elt F) → (⟨S8192x8192, .f32⟩ : BufTy).Contents (Elt F)),
    binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    unary main_v6 main_v7 (Host.exp : (⟨S8192x8192, .f32⟩ : BufTy).Contents (Elt F) → (⟨S8192x8192, .f32⟩ : BufTy).Contents (Elt F)),
    nullary main_v8 (iotaInDim S8192 32 0),
    nullary main_c (constantI S_ 32 4096#32),
    unary main_c main_v9 (broadcastInDim S8192 ![] bcast_S_S8192 : (⟨S_, .i32⟩ : BufTy).Contents (Elt F) → (⟨S8192, .i32⟩ : BufTy).Contents (Elt F)),
    binary main_v8 main_v9 main_v10 (addi : (⟨S8192, .i32⟩ : BufTy).Contents (Elt F) → (⟨S8192, .i32⟩ : BufTy).Contents (Elt F) → (⟨S8192, .i32⟩ : BufTy).Contents (Elt F)),
    nullary main_c_0 (constantI S_ 32 8192#32),
    unary main_c_0 main_call1_v0 ((id) : (⟨S_, .i32⟩ : BufTy).Contents (Elt F) → (⟨S_, .i32⟩ : BufTy).Contents (Elt F)),
    nullary main_call1_c (constantI S_ 32 0#32),
    binary main_call1_v0 main_call1_c main_call1_v1 ((cmpi .eq) : (⟨S_, .i32⟩ : BufTy).Contents (Elt F) → (⟨S_, .i32⟩ : BufTy).Contents (Elt F) → (⟨S_, .i1⟩ : BufTy).Contents (Elt F)),
    nullary main_call1_c_0 (constantI S_ 32 1#32),
    ternary main_call1_v1 main_call1_c_0 main_call1_v0 main_call1_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call1_v2 main_call1_v3 ((broadcastInDim S8192 ![] bcast_S_S8192) : (⟨S_, .i32⟩ : BufTy).Contents (Elt F) → (⟨S8192, .i32⟩ : BufTy).Contents (Elt F)),
    binary main_v10 main_call1_v3 main_call1_v4 ((Host.remsi) : (⟨S8192, .i32⟩ : BufTy).Contents (Elt F) → (⟨S8192, .i32⟩ : BufTy).Contents (Elt F) → (⟨S8192, .i32⟩ : BufTy).Contents (Elt F)),
    nullary main_call1_c_1 (constantI S_ 32 0#32),
    unary main_call1_c_1 main_call1_v5 ((broadcastInDim S8192 ![] bcast_S_S8192) : (⟨S_, .i32⟩ : BufTy).Contents (Elt F) → (⟨S8192, .i32⟩ : BufTy).Contents (Elt F)),
    binary main_call1_v4 main_call1_v5 main_call1_v6 ((cmpi .ne) : (⟨S8192, .i32⟩ : BufTy).Contents (Elt F) → (⟨S8192, .i32⟩ : BufTy).Contents (Elt F) → (⟨S8192, .i1⟩ : BufTy).Contents (Elt F)),
    nullary main_call1_c_2 (constantI S_ 32 0#32),
    unary main_call1_c_2 main_call1_v7 ((broadcastInDim S8192 ![] bcast_S_S8192) : (⟨S_, .i32⟩ : BufTy).Contents (Elt F) → (⟨S8192, .i32⟩ : BufTy).Contents (Elt F)),
    binary main_call1_v4 main_call1_v7 main_call1_v8 ((cmpi .slt) : (⟨S8192, .i32⟩ : BufTy).Contents (Elt F) → (⟨S8192, .i32⟩ : BufTy).Contents (Elt F) → (⟨S8192, .i1⟩ : BufTy).Contents (Elt F)),
    nullary main_call1_c_3 (constantI S_ 32 0#32),
    binary main_call1_v2 main_call1_c_3 main_call1_v9 ((cmpi .slt) : (⟨S_, .i32⟩ : BufTy).Contents (Elt F) → (⟨S_, .i32⟩ : BufTy).Contents (Elt F) → (⟨S_, .i1⟩ : BufTy).Contents (Elt F)),
    unary main_call1_v9 main_call1_v10 ((broadcastInDim S8192 ![] bcast_S_S8192) : (⟨S_, .i1⟩ : BufTy).Contents (Elt F) → (⟨S8192, .i1⟩ : BufTy).Contents (Elt F)),
    binary main_call1_v8 main_call1_v10 main_call1_v11 ((cmpi .ne) : (⟨S8192, .i1⟩ : BufTy).Contents (Elt F) → (⟨S8192, .i1⟩ : BufTy).Contents (Elt F) → (⟨S8192, .i1⟩ : BufTy).Contents (Elt F)),
    binary main_call1_v11 main_call1_v6 main_call1_v12 ((andi) : (⟨S8192, .i1⟩ : BufTy).Contents (Elt F) → (⟨S8192, .i1⟩ : BufTy).Contents (Elt F) → (⟨S8192, .i1⟩ : BufTy).Contents (Elt F)),
    unary main_call1_v2 main_call1_v13 ((broadcastInDim S8192 ![] bcast_S_S8192) : (⟨S_, .i32⟩ : BufTy).Contents (Elt F) → (⟨S8192, .i32⟩ : BufTy).Contents (Elt F)),
    binary main_call1_v4 main_call1_v13 main_call1_v14 ((addi) : (⟨S8192, .i32⟩ : BufTy).Contents (Elt F) → (⟨S8192, .i32⟩ : BufTy).Contents (Elt F) → (⟨S8192, .i32⟩ : BufTy).Contents (Elt F)),
    ternary main_call1_v12 main_call1_v14 main_call1_v4 main_v11 ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v12 (broadcastInDim S8192 ![] bcast_S_S8192 : (⟨S_, .i32⟩ : BufTy).Contents (Elt F) → (⟨S8192, .i32⟩ : BufTy).Contents (Elt F)),
    binary main_v8 main_v12 main_v13 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v14 (broadcastInDim S8192 ![] bcast_S_S8192 : (⟨S_, .i32⟩ : BufTy).Contents (Elt F) → (⟨S8192, .i32⟩ : BufTy).Contents (Elt F)),
    binary main_v8 main_v14 main_v15 (addi : (⟨S8192, .i32⟩ : BufTy).Contents (Elt F) → (⟨S8192, .i32⟩ : BufTy).Contents (Elt F) → (⟨S8192, .i32⟩ : BufTy).Contents (Elt F)),
    ternary main_v13 main_v15 main_v8 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_3 (constantI S_ 32 0#32),
    unary main_c_3 main_v17 (broadcastInDim S8192 ![] bcast_S_S8192 : (⟨S_, .i32⟩ : BufTy).Contents (Elt F) → (⟨S8192, .i32⟩ : BufTy).Contents (Elt F)),
    binary main_v11 main_v17 main_v18 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v19 (broadcastInDim S8192 ![] bcast_S_S8192 : (⟨S_, .i32⟩ : BufTy).Contents (Elt F) → (⟨S8192, .i32⟩ : BufTy).Contents (Elt F)),
    binary main_v11 main_v19 main_v20 (addi : (⟨S8192, .i32⟩ : BufTy).Contents (Elt F) → (⟨S8192, .i32⟩ : BufTy).Contents (Elt F) → (⟨S8192, .i32⟩ : BufTy).Contents (Elt F)),
    ternary main_v18 main_v20 main_v11 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v16 main_v22 (broadcastInDim S8192x1 ![0] bcast_S8192_S8192x1_0 : (⟨S8192, .i32⟩ : BufTy).Contents (Elt F) → (⟨S8192x1, .i32⟩ : BufTy).Contents (Elt F)),
    unary main_v21 main_v23 (broadcastInDim S8192x1 ![0] bcast_S8192_S8192x1_0 : (⟨S8192, .i32⟩ : BufTy).Contents (Elt F) → (⟨S8192x1, .i32⟩ : BufTy).Contents (Elt F)),
    binary main_v22 main_v23 main_v24 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v7 main_v24 main_v25 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_c_5 (constantI S_ 32 0#32),
    unary main_c_5 main_v26 (broadcastInDim S8192 ![] bcast_S_S8192 : (⟨S_, .i32⟩ : BufTy).Contents (Elt F) → (⟨S8192, .i32⟩ : BufTy).Contents (Elt F)),
    binary main_v8 main_v26 main_v27 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v28 (broadcastInDim S8192 ![] bcast_S_S8192 : (⟨S_, .i32⟩ : BufTy).Contents (Elt F) → (⟨S8192, .i32⟩ : BufTy).Contents (Elt F)),
    binary main_v8 main_v28 main_v29 (addi : (⟨S8192, .i32⟩ : BufTy).Contents (Elt F) → (⟨S8192, .i32⟩ : BufTy).Contents (Elt F) → (⟨S8192, .i32⟩ : BufTy).Contents (Elt F)),
    ternary main_v27 main_v29 main_v8 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_7 (constantI S_ 32 0#32),
    unary main_c_7 main_v31 (broadcastInDim S8192 ![] bcast_S_S8192 : (⟨S_, .i32⟩ : BufTy).Contents (Elt F) → (⟨S8192, .i32⟩ : BufTy).Contents (Elt F)),
    binary main_v8 main_v31 main_v32 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v33 (broadcastInDim S8192 ![] bcast_S_S8192 : (⟨S_, .i32⟩ : BufTy).Contents (Elt F) → (⟨S8192, .i32⟩ : BufTy).Contents (Elt F)),
    binary main_v8 main_v33 main_v34 (addi : (⟨S8192, .i32⟩ : BufTy).Contents (Elt F) → (⟨S8192, .i32⟩ : BufTy).Contents (Elt F) → (⟨S8192, .i32⟩ : BufTy).Contents (Elt F)),
    ternary main_v32 main_v34 main_v8 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v30 main_v36 (broadcastInDim S8192x1 ![0] bcast_S8192_S8192x1_0 : (⟨S8192, .i32⟩ : BufTy).Contents (Elt F) → (⟨S8192x1, .i32⟩ : BufTy).Contents (Elt F)),
    unary main_v35 main_v37 (broadcastInDim S8192x1 ![0] bcast_S8192_S8192x1_0 : (⟨S8192, .i32⟩ : BufTy).Contents (Elt F) → (⟨S8192x1, .i32⟩ : BufTy).Contents (Elt F)),
    binary main_v36 main_v37 main_v38 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v7 main_v38 main_v39 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_9 (constant S_ .f32 0x00000000#32),
    binary main_v7 main_cst_9 main_v40 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v40 main_v39 main_v41 (subf : (⟨S8192, .f32⟩ : BufTy).Contents (Elt F) → (⟨S8192, .f32⟩ : BufTy).Contents (Elt F) → (⟨S8192, .f32⟩ : BufTy).Contents (Elt F)),
    binary main_v25 main_v41 main_v42 (Host.divf : (⟨S8192, .f32⟩ : BufTy).Contents (Elt F) → (⟨S8192, .f32⟩ : BufTy).Contents (Elt F) → (⟨S8192, .f32⟩ : BufTy).Contents (Elt F)),
    unary main_v42 main_v43 (Host.log : (⟨S8192, .f32⟩ : BufTy).Contents (Elt F) → (⟨S8192, .f32⟩ : BufTy).Contents (Elt F)),
    unary main_v43 main_v44 (Host.negf : (⟨S8192, .f32⟩ : BufTy).Contents (Elt F) → (⟨S8192, .f32⟩ : BufTy).Contents (Elt F)),
    nullary main_cst_10 (constant S_ .f32 0x00000000#32),
    binary main_v44 main_cst_10 main_v45 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_11 (constant S_ .f32 0x46000000#32),
    binary main_v45 main_cst_11 main_v46 (Host.divf : (⟨S_, .f32⟩ : BufTy).Contents (Elt F) → (⟨S_, .f32⟩ : BufTy).Contents (Elt F) → (⟨S_, .f32⟩ : BufTy).Contents (Elt F)) ]

-- eighty-five binds re-associated: the rewrite under the chain recurses once per statement
set_option maxRecDepth 8192 in
set_option maxHeartbeats 4000000 in
/-- @main is that straight line: the two windows and the three functions unfolded, sequencing re-associated; a called
    function's operation over typed references is the plain operation over the same buffers (the transport along a
    buffer's type is the identity at a literal buffer). -/
theorem main_eq (c : Dev nD) : main (F := F) c = seq ops := by
  simp only [main, main_part0, main_part1, fn_norm.body, fn_remainder.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., unary_bufs_sub .., nullary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., binary_bufs_sub .., binary_bufs_sub .., unary_bufs_sub .., unary_bufs_sub .., nullary_bufs_sub .., binary_bufs_sub .., nullary_bufs_sub .., binary_bufs_sub ..⟩

end Float

end Cert.ReferenceIdeal.RefValue

end
-- ==== Proof.RefRunValue.lean ====
/-
  What the reference's result buffer holds when @main ends: the fold of the 85 operations' results at that
  buffer is the tower of named arrays of the run module applied to the argument's launch contents, and the
  argument's buffer is unchanged.
-/
import proofs.«135387_j44985487459095_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduceAdd concatenate transpose broadcastInDim in
set_option maxRecDepth 16384 in
set_option maxHeartbeats 4000000 in
/-- The fold at the result buffer: each operation's result read at its own buffer, every other buffer left as it
    was; what remains is the tower of named arrays, unfolded. -/
theorem out_eq (V : Valuation τ sig (Elt F)) :
    after ops V (main_v46 : DevRef τ sig) = refTerm (V (main_arg0 : DevRef τ sig)) := by
  after_results_simp
  unfold refTerm vTerm vDen vSelf vPos vEsim vSim vXn vNrm iPosIdx iSelfIdx iPair iCol iWrap iRem iFix iTrunc iShift iDiv iBc iIota
  rfl

set_option maxRecDepth 16384 in
set_option maxHeartbeats 4000000 in
/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result at `refTerm` of the argument and the argument unchanged. -/
theorem run₀ (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v46).trans (out_eq _), (h c main_arg0).trans (arg0_eq _)⟩)
    (run_seq scopedRefs_eq scopedSems_eq defs main (fun _ => ops) main_eq (fun _ => ops_sub) m ρ)

end Cert.ReferenceIdeal.RefValue

end
-- ==== Proof.RefGather.lean ====
/-
  Reading the two single-element gathers: a gather with both operand axes collapsed and a two-column table of
  start indices reads, at row r, the operand at (the table's row r, column 0; the table's row r, column 1), each
  read signed and clamped into the operand; a column made of a vector reads the vector; two columns side by side
  read the first at column 0 and the second at column 1.
-/
import proofs.«135387_j44985487459095_2_alg».proof.Proof.Gen.ReferenceIdeal
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The gather of single elements read at row `r`. -/
theorem gather_pair_apply {α : Type} {w : Nat} (x : S8192x8192.Idx → α) (idx : IVec S8192x2 w) (r : Fin 8192) :
    Host.gather gather_S8192x8192_S8192x2_S8192_n_01_n_n_01_1_11 x idx (ix1 r)
      = x (ix2 (n0 := 8192) (n1 := 8192) ⟨min (idx (ix2 r (0 : Fin 2))).toInt.toNat 8191, by omega⟩
            ⟨min (idx (ix2 r (1 : Fin 2))).toInt.toNat 8191, by omega⟩) := by
  unfold Host.gather
  refine congrArg x (funext fun a => Fin.ext ?_)
  show (gather_S8192x8192_S8192x2_S8192_n_01_n_n_01_1_11).start (ix1 r) idx a + (gather_S8192x8192_S8192x2_S8192_n_01_n_n_01_1_11).batchCoord (ix1 r) a + (gather_S8192x8192_S8192x2_S8192_n_01_n_n_01_1_11).offCoord (ix1 r) a = _
  rw [GatherDims.batchCoord_eq_zero _ _ _ List.not_mem_nil]
  have hc : ∀ a : Fin S8192x8192.rank, a ∈ (gather_S8192x8192_S8192x2_S8192_n_01_n_n_01_1_11).collapsedSliceDims := by decide
  have hm : ∀ a : Fin S8192x8192.rank, a ∈ (gather_S8192x8192_S8192x2_S8192_n_01_n_n_01_1_11).startIndexMap := by decide
  match a with
  | ⟨0, h0⟩ =>
    rw [GatherDims.offCoord_eq_zero _ _ _ (fun h => ((GatherDims.mem_sKept _ _).mp h).1 (hc _))]
    simp only [Nat.add_zero]
    unfold GatherDims.start
    rw [dif_pos (hm _)]
    have hsi : (gather_S8192x8192_S8192x2_S8192_n_01_n_n_01_1_11).siIdx (ix1 r) ⟨List.idxOf (⟨0, h0⟩ : Fin S8192x8192.rank) (gather_S8192x8192_S8192x2_S8192_n_01_n_n_01_1_11).startIndexMap,
        List.idxOf_lt_length_iff.2 (hm _)⟩ = ix2 r (0 : Fin 2) := by
      funext b; refine Fin.ext ?_
      match b with
      | ⟨0, _⟩ => rfl
      | ⟨1, _⟩ => rfl
    rw [hsi]
    rfl
  | ⟨1, h0⟩ =>
    rw [GatherDims.offCoord_eq_zero _ _ _ (fun h => ((GatherDims.mem_sKept _ _).mp h).1 (hc _))]
    simp only [Nat.add_zero]
    unfold GatherDims.start
    rw [dif_pos (hm _)]
    have hsi : (gather_S8192x8192_S8192x2_S8192_n_01_n_n_01_1_11).siIdx (ix1 r) ⟨List.idxOf (⟨1, h0⟩ : Fin S8192x8192.rank) (gather_S8192x8192_S8192x2_S8192_n_01_n_n_01_1_11).startIndexMap,
        List.idxOf_lt_length_iff.2 (hm _)⟩ = ix2 r (1 : Fin 2) := by
      funext b; refine Fin.ext ?_
      match b with
      | ⟨0, _⟩ => rfl
      | ⟨1, _⟩ => rfl
    rw [hsi]
    rfl

end Cert.ReferenceIdeal.RefValue

end
-- ==== Proof.RefIdx.lean ====
/-
  The two tables of start indices read at a row, and the two gathered columns: at row r the first table holds
  (r, (r + 4096) mod 8192) and the second (r, r), so the gathers read the array of exponentials at those places.
  The integer side is 32-bit word arithmetic at a row number below 8192: nothing wraps, nothing is negative,
  jnp's sign fix-ups of the remainder and of a negative index never fire.
-/
import proofs.«135387_j44985487459095_2_alg».proof.Proof.RefRun
import proofs.«135387_j44985487459095_2_alg».proof.Proof.RefGather

noncomputable section

namespace Cert.ReferenceIdeal.RefValue

open Cert.ReferenceIdeal Cert.ReferenceIdeal.Gen Idealize.ShloMosaic Idealize.ShloMosaic.ValueIdx

/-! ## Words -/

/-- A word below 2³¹ is not negative. -/
theorem slt_zero_of_lt {v : BitVec 32} (h : v.toNat < 2147483648) : IntOp.cmpi .slt v 0#32 = 0#1 := by
  have : v.slt 0#32 = false := by
    rw [BitVec.slt_eq_decide]
    simp [BitVec.toInt_eq_toNat_cond]
    omega
  show BitVec.ofBool (v.slt 0#32) = 0#1
  rw [this]; rfl

/-- The host's signed remainder by 8192 of a word below 2³¹ is the natural numbers' remainder. -/
theorem remsi_8192_of_lt {x : BitVec 32} (hx : x.toNat < 2147483648) :
    IntOp.remsi .host x 8192#32 = BitVec.ofNat 32 (x.toNat % 8192) := by
  unfold IntOp.remsi
  rw [if_neg (by
    unfold IntOp.SDivCorner
    intro h
    rcases h with h | ⟨_, h⟩ <;> exact absurd h (by decide))]
  have hx' : x.msb = false := by rw [BitVec.msb_eq_false_iff_two_mul_lt]; omega
  have hy : (8192#32 : BitVec 32).msb = false := by decide
  rw [BitVec.srem_eq, hx', hy]
  apply BitVec.eq_of_toNat_eq
  simp [BitVec.toNat_umod]
  omega

/-- A number below 2³¹ as a word, read back signed. -/
theorem toInt_toNat_ofNat {n : Nat} (h : n < 2147483648) : (BitVec.ofNat 32 n).toInt.toNat = n := by
  have hn : (BitVec.ofNat 32 n).toNat = n := by rw [BitVec.toNat_ofNat]; omega
  rw [BitVec.toInt_eq_toNat_cond, hn, if_pos (by omega)]
  rfl

/-! ## The vectors of the rows at a row -/

theorem iBc_apply {w : Nat} (v : IVec S_ w) (j : S8192.Idx) : iBc v j = v ix0 :=
  broadcastInDim_scalar_apply _ v j

theorem iDiv_apply (j : S_.Idx) : iDiv j = 8192#32 := by
  show Scalar.select (IntOp.cmpi .eq 8192#32 0#32) 1#32 8192#32 = 8192#32
  decide

theorem iIota_apply (r : Fin 8192) : iIota (ix1 r) = BitVec.ofNat 32 r.val := rfl

theorem iShift_apply (r : Fin 8192) : iShift (ix1 r) = BitVec.ofNat 32 (r.val + 4096) := by
  show IntOp.addi (iIota (ix1 r)) (iBc (constantI S_ 32 4096#32) (ix1 r)) = _
  rw [iBc_apply, iIota_apply]
  show BitVec.ofNat 32 r.val + 4096#32 = _
  apply BitVec.eq_of_toNat_eq
  simp [BitVec.toNat_add, BitVec.toNat_ofNat]

theorem iTrunc_apply (r : Fin 8192) : iTrunc (ix1 r) = BitVec.ofNat 32 ((r.val + 4096) % 8192) := by
  show IntOp.remsi .host (iShift (ix1 r)) (iBc iDiv (ix1 r)) = _
  have hn : (BitVec.ofNat 32 (r.val + 4096)).toNat = r.val + 4096 := by
    rw [BitVec.toNat_ofNat]; have := r.isLt; omega
  rw [iBc_apply, iDiv_apply, iShift_apply, remsi_8192_of_lt (by rw [hn]; have := r.isLt; omega), hn]

theorem iTrunc_toNat (r : Fin 8192) : (iTrunc (ix1 r)).toNat = (r.val + 4096) % 8192 := by
  rw [iTrunc_apply, BitVec.toNat_ofNat]; omega

theorem iFix_apply (r : Fin 8192) : iFix (ix1 r) = 0#1 := by
  show IntOp.andi (IntOp.cmpi .ne (IntOp.cmpi .slt (iTrunc (ix1 r)) (iBc (constantI S_ 32 0#32) (ix1 r)))
      (iBc (cmpi .slt iDiv (constantI S_ 32 0#32)) (ix1 r)))
    (IntOp.cmpi .ne (iTrunc (ix1 r)) (iBc (constantI S_ 32 0#32) (ix1 r))) = 0#1
  rw [iBc_apply, iBc_apply]
  show IntOp.andi (IntOp.cmpi .ne (IntOp.cmpi .slt (iTrunc (ix1 r)) 0#32) (IntOp.cmpi .slt (iDiv ix0) 0#32))
    (IntOp.cmpi .ne (iTrunc (ix1 r)) 0#32) = 0#1
  rw [iDiv_apply, slt_zero_of_lt (by rw [iTrunc_toNat]; omega)]
  show (IntOp.cmpi .ne 0#1 (IntOp.cmpi .slt 8192#32 0#32)) &&& _ = 0#1
  rw [show IntOp.cmpi .ne 0#1 (IntOp.cmpi .slt 8192#32 0#32) = 0#1 by decide]
  exact BitVec.zero_and

theorem iRem_apply (r : Fin 8192) : iRem (ix1 r) = BitVec.ofNat 32 ((r.val + 4096) % 8192) := by
  show Scalar.select (iFix (ix1 r)) _ (iTrunc (ix1 r)) = _
  rw [iFix_apply, select_zero, iTrunc_apply]

/-- A vector whose word at row `r` is below 2³¹ is unchanged there by the wrapping of negative indices. -/
theorem iWrap_apply (v : IVec S8192 32) (r : Fin 8192) (h : (v (ix1 r)).toNat < 2147483648) : iWrap v (ix1 r) = v (ix1 r) := by
  show Scalar.select (IntOp.cmpi .slt (v (ix1 r)) (iBc (constantI S_ 32 0#32) (ix1 r))) _ (v (ix1 r)) = _
  rw [iBc_apply]
  show Scalar.select (IntOp.cmpi .slt (v (ix1 r)) 0#32) _ (v (ix1 r)) = _
  rw [slt_zero_of_lt h, select_zero]

/-! ## The tables at a row -/

theorem iCol_apply (v : IVec S8192 32) (r : Fin 8192) : iCol v (ix2 r (0 : Fin 1)) = v (ix1 r) :=
  broadcastInDim_apply _ _ v _ (ix1 r) fun a => match a with | ⟨0, _⟩ => rfl

theorem iPair_apply_fst (a b : IVec S8192 32) (r : Fin 8192) : iPair a b (ix2 r (0 : Fin 2)) = a (ix1 r) := by
  unfold iPair
  rw [concatenate_pair_apply_left (1 : Fin S8192x2.rank) (iCol a) (iCol b) _ (ix2 r (0 : Fin 2)) rfl (ix2 r (0 : Fin 1))
    (fun c => match c with | ⟨0, _⟩ => rfl | ⟨1, _⟩ => rfl), iCol_apply]

theorem iPair_apply_snd (a b : IVec S8192 32) (r : Fin 8192) : iPair a b (ix2 r (1 : Fin 2)) = b (ix1 r) := by
  unfold iPair
  rw [concatenate_pair_apply_right (1 : Fin S8192x2.rank) (iCol a) (iCol b) _ (ix2 r (1 : Fin 2)) rfl rfl (ix2 r (0 : Fin 1))
    (fun c => match c with | ⟨0, _⟩ => fun _ => rfl | ⟨1, _⟩ => fun h => absurd rfl h) rfl, iCol_apply]

theorem wrapIota_apply (r : Fin 8192) : iWrap iIota (ix1 r) = BitVec.ofNat 32 r.val := by
  rw [iWrap_apply _ _ (by rw [iIota_apply, BitVec.toNat_ofNat]; have := r.isLt; omega), iIota_apply]

theorem wrapRem_apply (r : Fin 8192) : iWrap iRem (ix1 r) = BitVec.ofNat 32 ((r.val + 4096) % 8192) := by
  rw [iWrap_apply _ _ (by rw [iRem_apply, BitVec.toNat_ofNat]; omega), iRem_apply]

/-! ## The two gathers at a row -/

section Float
variable {F : FTy → Type} [FloatOps F]

/-- Row `r`'s positive-pair entry is the exponentials' array at (r, (r + 4096) mod 8192). -/
theorem vPos_apply (x : FVec F S8192x256 .f32) (r : Fin 8192) :
    vPos x (ix1 r) = vEsim x (ix2 r (⟨(r.val + 4096) % 8192, Nat.mod_lt _ (by decide)⟩ : Fin 8192)) := by
  unfold vPos
  rw [gather_pair_apply]
  have e0 : min (iPosIdx (ix2 r (0 : Fin 2))).toInt.toNat 8191 = r.val := by
    unfold iPosIdx
    rw [iPair_apply_fst, wrapIota_apply, toInt_toNat_ofNat (by have := r.isLt; omega)]
    have := r.isLt; omega
  have e1 : min (iPosIdx (ix2 r (1 : Fin 2))).toInt.toNat 8191 = (r.val + 4096) % 8192 := by
    unfold iPosIdx
    rw [iPair_apply_snd, wrapRem_apply, toInt_toNat_ofNat (by omega)]
    omega
  refine congrArg (vEsim x) (funext fun a => ?_)
  match a with
  | ⟨0, _⟩ => exact Fin.ext e0
  | ⟨1, _⟩ => exact Fin.ext e1

/-- Row `r`'s diagonal entry is the exponentials' array at (r, r). -/
theorem vSelf_apply (x : FVec F S8192x256 .f32) (r : Fin 8192) : vSelf x (ix1 r) = vEsim x (ix2 r r) := by
  unfold vSelf
  rw [gather_pair_apply]
  have e0 : min (iSelfIdx (ix2 r (0 : Fin 2))).toInt.toNat 8191 = r.val := by
    unfold iSelfIdx
    rw [iPair_apply_fst, wrapIota_apply, toInt_toNat_ofNat (by have := r.isLt; omega)]
    have := r.isLt; omega
  have e1 : min (iSelfIdx (ix2 r (1 : Fin 2))).toInt.toNat 8191 = r.val := by
    unfold iSelfIdx
    rw [iPair_apply_snd, wrapIota_apply, toInt_toNat_ofNat (by have := r.isLt; omega)]
    have := r.isLt; omega
  refine congrArg (vEsim x) (funext fun a => ?_)
  match a with
  | ⟨0, _⟩ => exact Fin.ext e0
  | ⟨1, _⟩ => exact Fin.ext e1

end Float

end Cert.ReferenceIdeal.RefValue

end
-- ==== Proof.RefRead.lean ====
/-
  The tower of named arrays read index by index at the extended reals: the norms, the normalised entries, the
  inner products (the contraction re-indexed by its one coordinate), the exponentials, the denominators and the
  rows' terms are the specification's, so the result is its loss; and with the run, the program's statement.
-/
import proofs.«135387_j44985487459095_2_alg».proof.Proof.RefRunValue
import proofs.«135387_j44985487459095_2_alg».proof.Proof.RefIdx
import proofs.«135387_j44985487459095_2_alg».proof.Proof.Spec
import Idealize.ShloMosaic.Lib.ValueLayout

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.NtXent

variable (x : FVec Ideal S8192x256 .f32)

/-! ## The norms and the normalised entries -/

theorem vNrm_apply (r : Fin 8192) : vNrm x (ix2 r (0 : Fin 1)) = nrm x r := by
  have hR : S8192x256.Reduces [1] S8192 := by decide
  show Ideal.sqrt (broadcastInDim S8192x1 ![0] bcast_S8192_S8192x1_0
    (Host.reduceAdd (mulf x x) (constant S_ .f32 0x00000000#32) reducesTo_S8192x256_S8192_d1 h_S_) (ix2 r (0 : Fin 1))) = _
  rw [broadcastInDim_apply _ _ _ _ (ix1 r) fun a => match a with | ⟨0, _⟩ => rfl, hostReduceAdd_apply]
  refine congrArg Ideal.sqrt ((Ideal.hostReduceAdd_single reducesTo_S8192x256_S8192_d1 hR _ _ _).trans ?_)
  show Ideal.ofBits .f32 0x00000000#32 + ∑ k : Fin 256, mulf x x (hR.lift (ix1 r) k) = ∑ d : Fin 256, x (ix2 r d) * x (ix2 r d)
  rw [Ideal.ofBits_zero_f32, zero_add]
  refine Finset.sum_congr rfl fun d _ => ?_
  have e : hR.lift (ix1 r) d = ix2 r d := funext fun a => Fin.ext (match a with | ⟨0, _⟩ => rfl | ⟨1, _⟩ => rfl)
  show x (hR.lift (ix1 r) d) * x (hR.lift (ix1 r) d) = _
  rw [e]

theorem vXn_apply (r : Fin 8192) (d : Fin 256) : vXn x (ix2 r d) = xn x r d := by
  show Ideal.div (x (ix2 r d)) (broadcastInDim S8192x256 ![0, 1] bcast_S8192x1_S8192x256_0_1 (vNrm x) (ix2 r d)) = _
  rw [broadcastInDim_apply _ _ _ _ (ix2 r (0 : Fin 1)) fun a => match a with | ⟨0, _⟩ => rfl | ⟨1, _⟩ => rfl, vNrm_apply]
  rfl

/-! ## The inner products -/

theorem contr_rank : (dot_S8192x256_S256x8192_S8192x8192_1_0_0_1_n_n).contr.rank = 1 := rfl
theorem contr_size : (dot_S8192x256_S256x8192_S8192x8192_1_0_0_1_n_n).contr.size ⟨0, by rw [contr_rank]; exact Nat.one_pos⟩ = 256 := rfl

/-- The contraction's index is its one coordinate, a column number. -/
def cEquiv : (dot_S8192x256_S256x8192_S8192x8192_1_0_0_1_n_n).contr.Idx ≃ Fin 256 :=
  contrEquiv1 dot_S8192x256_S256x8192_S8192x8192_1_0_0_1_n_n 256 contr_rank contr_size

theorem lhsIdx_eq (r s : Fin 8192) (c : Fin 256) :
    (dot_S8192x256_S256x8192_S8192x8192_1_0_0_1_n_n).lhsIdx (ix2 r s) (cEquiv.symm c) = ix2 r c := by
  funext a; refine Fin.ext ?_
  match a with
  | ⟨0, _⟩ => rfl
  | ⟨1, _⟩ =>
    exact ((dot_S8192x256_S256x8192_S8192x8192_1_0_0_1_n_n).lhsIdx_val_of_single (cl := (1 : Fin 2)) rfl (ix2 r s) (cEquiv.symm c)).trans
      (contrEquiv1_symm_val dot_S8192x256_S256x8192_S8192x8192_1_0_0_1_n_n 256 contr_rank contr_size c)

theorem rhsIdx_eq (r s : Fin 8192) (c : Fin 256) :
    (dot_S8192x256_S256x8192_S8192x8192_1_0_0_1_n_n).rhsIdx (ix2 r s) (cEquiv.symm c) = ix2 c s := by
  funext a; refine Fin.ext ?_
  match a with
  | ⟨0, _⟩ =>
    exact ((dot_S8192x256_S256x8192_S8192x8192_1_0_0_1_n_n).rhsIdx_val_of_single (cr := (0 : Fin 2)) rfl (ix2 r s) (cEquiv.symm c)).trans
      (contrEquiv1_symm_val dot_S8192x256_S256x8192_S8192x8192_1_0_0_1_n_n 256 contr_rank contr_size c)
  | ⟨1, _⟩ => rfl

theorem vSim_apply (r s : Fin 8192) : vSim x (ix2 r s) = sim x r s := by
  show FloatOps.dotGeneral dot_S8192x256_S256x8192_S8192x8192_1_0_0_1_n_n none .single (vXn x)
    (transpose S256x8192 [1, 0] (vXn x) transposes_S8192x256_S256x8192_1_0) (ix2 r s) = _
  rw [Ideal.dotGeneral_apply, ← Equiv.sum_comp cEquiv.symm]
  refine Finset.sum_congr rfl fun c _ => ?_
  rw [lhsIdx_eq, rhsIdx_eq, transpose_ix2_apply, vXn_apply, vXn_apply]

/-! ## The exponentials, the denominators, the terms -/

theorem vEsim_apply (r s : Fin 8192) : vEsim x (ix2 r s) = esim x r s := by
  show Ideal.exp (Ideal.div (vSim x (ix2 r s))
    (broadcastInDim S8192x8192 ![] bcast_S_S8192x8192 (constant (F := Ideal) S_ .f32 0x3F000000#32) (ix2 r s))) = _
  rw [broadcastInDim_scalar_apply, vSim_apply]
  rfl

theorem vDen_apply (r : Fin 8192) : vDen x (ix1 r) = (∑ s : Fin 8192, esim x r s) - esim x r r := by
  have hR : S8192x8192.Reduces [1] S8192 := by decide
  show Host.reduceAdd (vEsim x) (constant S_ .f32 0x00000000#32) reducesTo_S8192x8192_S8192_d1 h_S_ (ix1 r) - vSelf x (ix1 r) = _
  rw [vSelf_apply, vEsim_apply, hostReduceAdd_apply]
  refine congrArg (· - esim x r r) ((Ideal.hostReduceAdd_single reducesTo_S8192x8192_S8192_d1 hR _ _ _).trans ?_)
  show Ideal.ofBits .f32 0x00000000#32 + ∑ k : Fin 8192, vEsim x (hR.lift (ix1 r) k) = ∑ s : Fin 8192, esim x r s
  rw [Ideal.ofBits_zero_f32, zero_add]
  refine Finset.sum_congr rfl fun s _ => ?_
  have e : hR.lift (ix1 r) s = ix2 r s := funext fun a => Fin.ext (match a with | ⟨0, _⟩ => rfl | ⟨1, _⟩ => rfl)
  rw [e, vEsim_apply]

theorem vTerm_apply (r : Fin 8192) : vTerm x (ix1 r) = term x r := by
  show -Ideal.log (Ideal.div (vPos x (ix1 r)) (vDen x (ix1 r))) = _
  rw [vPos_apply, vEsim_apply, vDen_apply]
  rfl

/-! ## The result -/

/-- A rank-1 index set is its coordinate's range … -/
def idxEquiv1 {n : Nat} : (⟨1, ![n]⟩ : Shape).Idx ≃ Fin n where
  toFun i := i 0
  invFun r := ix1 r
  left_inv i := (eq_ix1 i).symm
  right_inv _ := rfl
/-- … so a sum over it is the sum over the coordinate. -/
theorem sum_idx1 {n : Nat} (f : (⟨1, ![n]⟩ : Shape).Idx → EReal) : ∑ i, f i = ∑ r : Fin n, f (ix1 r) := by
  rw [← Equiv.sum_comp (idxEquiv1 (n := n)).symm f]
  rfl

/-- The operations' composed term is the specification's loss. -/
theorem refTerm_eq : refTerm x = loss x := by
  funext j
  show Ideal.div (Host.reduceAdd (vTerm x) (constant S_ .f32 0x00000000#32) reducesTo_S8192_S_d0 h_S_ j)
    (Ideal.ofBits .f32 0x46000000#32) = Ideal.div (∑ r : Fin 8192, term x r) rows
  rw [hostReduceAdd_apply]
  refine congrArg (Ideal.div · rows) ((Ideal.hostReduceAdd_total reducesTo_S8192_S_d0 (fun b => b.elim0) _ _ _).trans ?_)
  show Ideal.ofBits .f32 0x00000000#32 + ∑ i : (⟨1, ![8192]⟩ : Shape).Idx, vTerm x i = ∑ r : Fin 8192, term x r
  rw [Ideal.ofBits_zero_f32, zero_add, sum_idx1]
  exact Finset.sum_congr rfl fun r _ => vTerm_apply x r

/-- On every device, from any memory with zero counters: every weakly fair execution of the reference's @main
    terminates with the result buffer at the specification's loss of the argument, the argument unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v46) = Cert.NtXent.loss (m ((c.tc : Thread nD τ).loc main_arg0))
        ∧ r.2.mem ((c.tc : Thread nD τ).loc main_arg0) = m ((c.tc : Thread nD τ).loc main_arg0)) :=
  (θ_run _ _ _).mono (fun _ h c => ⟨(h c).1.trans (refTerm_eq _), (h c).2⟩) (run₀ (F := Ideal) m ρ)

end Cert.ReferenceIdeal.RefValue

end
-- ==== Proof.lean ====
/-
  The row-sum kernel computes an NT-Xent (SimCLR) loss: rows of `x` are divided by their norms, `esim r s` is
  `exp` of twice the inner product of normalised rows `r` and `s`, and the loss is the mean over the rows of
  `-log (esim r (partner r) / ((∑ s, esim r s) - esim r r))`.  The kernel program gets the row sums `∑ s, esim r s`
  from a pallas_call that walks 4 row blocks × 8 column blocks, accumulating each block's lane sums in a scratch
  buffer, and computes the diagonal and partner terms as row-wise inner products on the host; the reference forms
  the whole 8192 × 8192 matrix, sums its rows and gathers the two entries.  Over the extended reals the two agree
  by commutativity and associativity of `+` and `·` alone (the sum over 8192 columns is the sum of the 8 blocks'
  sums of 1024; `t · 2 = t / 0.5`; an inner product is symmetric), so the precondition is never opened.

  `frame_Kernel`, `frame_KernelIdeal`: the program's run, written against the launch of a program of one region
  between two stretches of host lines; the two input windows read ONE array, dealt to them in halves of its share.
  `frame_ReferenceIdeal` and the reference's half of `algebraic`: the reference's run as a line of host operations.
  `preserves`: the ideal pass rewrote nothing.  `algebraic`: both runs end at `Cert.NtXent.loss` of the argument.
-/
import proofs.«135387_j44985487459095_2_alg».proof.Defs
import proofs.«135387_j44985487459095_2_alg».proof.Proof.Gen.Kernel
import proofs.«135387_j44985487459095_2_alg».proof.Proof.Gen.KernelIdeal
import proofs.«135387_j44985487459095_2_alg».proof.Proof.Gen.ReferenceIdeal
import proofs.«135387_j44985487459095_2_alg».proof.Proof.Gen.Pre_finite_inputs
import proofs.«135387_j44985487459095_2_alg».proof.Proof.Kb.Frame
import proofs.«135387_j44985487459095_2_alg».proof.Proof.Ki.Frame
import proofs.«135387_j44985487459095_2_alg».proof.Proof.Ki.Value
import proofs.«135387_j44985487459095_2_alg».proof.Proof.KvBridge
import proofs.«135387_j44985487459095_2_alg».proof.Proof.RefRead

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both idealized programs end with the loss of the argument array. -/
theorem algebraic : Cert.algebraic_KernelIdeal_ReferenceIdeal := by
  intro m ρ m' ρ' _ hagree
  refine ⟨fun c => Cert.NtXent.loss (m ((c.tc : Thread Cert.KernelIdeal.nD Cert.KernelIdeal.τ).loc Cert.KernelIdeal.main_arg0)), ?_, ?_⟩
  · exact (θ_run Cert.KernelIdeal.defs _ _).mono (fun _ h c =>
      ⟨(h c _ (Cert.KernelIdeal.Hand.mem_uc Cert.KernelIdeal.main_v27 (by decide))).trans
          ((Cert.KernelIdeal.Hand.W3_result m c).trans (Cert.KernelIdeal.KValue.kernelTerm_eq _)),
        (h c _ (Cert.KernelIdeal.Hand.mem_uc Cert.KernelIdeal.main_arg0 (by decide))).trans (Cert.KernelIdeal.Hand.W3_main_arg0 m c)⟩)
      (Cert.KernelIdeal.Hand.run_main (F := Ideal) m ρ)
  · exact (θ_run Cert.ReferenceIdeal.defs _ _).mono (fun _ h c => ⟨(h c).1.trans (by rw [hagree c]), (h c).2⟩)
      (Cert.ReferenceIdeal.RefValue.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
